-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x32 : Shape := ⟨2, ![8192, 32]⟩
abbrev S3x1 : Shape := ⟨2, ![3, 1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg4 : FVec F S3x1 .f32) (main_arg5 : FVec F S3x1 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S3x1 .f32 := Host.absf main_arg4
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_v24 : FVec F S3x1 .f32 := Host.absf main_arg5
  let main_cst_8 : FVec F S_ .f32 := constant S_ .f32 0x7F800000#32
  let main_v25 : FVec F S3x1 .f32 := broadcastInDim S3x1 ![] bcast_S_S3x1 main_cst_8
  let main_v26 : IVec S3x1 1 := cmpf .olt main_v24 main_v25
  let main_c_9 : IVec S_ 1 := constantI S_ 1 1#1
  let main_v27 : IVec S_ 1 := (fun x v => Host.reduce IntOp.andi x v reducesTo_S3x1_S_d0_1 h_S_) main_v26 main_c_9
  let main_v28 : IVec S_ 1 := andi main_v23 main_v27
  main_v28

def fn {F : FTy → Type} [FloatOps F] (main_arg0 : FVec F S8192x8192 .f32) (main_arg1 : FVec F S8192x8192 .f32) (main_arg2 : FVec F S8192x32 .f32) (main_arg3 : FVec F S8192x32 .f32) (main_arg4 : FVec F S3x1 .f32) (main_arg5 : FVec F S3x1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Kernel.lean ====
abbrev S8192x8192 : Shape := ⟨2, ![8192, 8192]⟩
abbrev S8192x32 : Shape := ⟨2, ![8192, 32]⟩
abbrev S3x1 : Shape := ⟨2, ![3, 1]⟩
abbrev S8192x64 : Shape := ⟨2, ![8192, 64]⟩
abbrev S256x8192 : Shape := ⟨2, ![256, 8192]⟩
abbrev S256x64 : Shape := ⟨2, ![256, 64]⟩
abbrev S1x1 : Shape := ⟨2, ![1, 1]⟩
abbrev S1 : Shape := ⟨1, ![1]⟩

abbrev nBuf : Space → Nat
  | .hbm => 52
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S8192x32, .f32⟩
  | .hbm, ⟨4, _⟩ => ⟨S3x1, .f32⟩
  | .hbm, ⟨5, _⟩ => ⟨S3x1, .f32⟩
  | .hbm, ⟨6, _⟩ => ⟨S8192x64, .f32⟩
  | .hbm, ⟨7, _⟩ => ⟨S8192x64, .bf16⟩
  | .hbm, ⟨8, _⟩ => ⟨S8192x64, .f32⟩
  | .hbm, ⟨9, _⟩ => ⟨S8192x32, .f32⟩
  | .hbm, ⟨10, _⟩ => ⟨S8192x32, .f32⟩
  | .hbm, ⟨11, _⟩ => ⟨S8192x64, .f32⟩
  | .hbm, ⟨12, _⟩ => ⟨S8192x64, .bf16⟩
  | .hbm, ⟨13, _⟩ => ⟨S8192x64, .f32⟩
  | .hbm, ⟨14, _⟩ => ⟨S8192x32, .f32⟩
  | .hbm, ⟨15, _⟩ => ⟨S8192x32, .f32⟩
  | .hbm, ⟨16, _⟩ => ⟨S1x1, .f32⟩
  | .hbm, ⟨17, _⟩ => ⟨S1, .f32⟩
  | .hbm, ⟨18, _⟩ => ⟨S1x1, .f32⟩
  | .hbm, ⟨19, _⟩ => ⟨S8192x32, .f32⟩
  | .hbm, ⟨20, _⟩ => ⟨S8192x32, .f32⟩
  | .hbm, ⟨21, _⟩ => ⟨S1x1, .f32⟩
  | .hbm, ⟨22, _⟩ => ⟨S1, .f32⟩
  | .hbm, ⟨23, _⟩ => ⟨S1x1, .f32⟩
  | .hbm, ⟨24, _⟩ => ⟨S8192x32, .f32⟩
  | .hbm, ⟨25, _⟩ => ⟨S8192x32, .f32⟩
  | .hbm, ⟨26, _⟩ => ⟨S8192x64, .f32⟩
  | .hbm, ⟨27, _⟩ => ⟨S8192x64, .bf16⟩
  | .hbm, ⟨28, _⟩ => ⟨S1x1, .f32⟩
  | .hbm, ⟨29, _⟩ => ⟨S1, .f32⟩
  | .hbm, ⟨30, _⟩ => ⟨S1x1, .f32⟩
  | .hbm, ⟨31, _⟩ => ⟨S8192x32, .f32⟩
  | .hbm, ⟨32, _⟩ => ⟨S8192x32, .f32⟩
  | .hbm, ⟨33, _⟩ => ⟨S1x1, .f32⟩
  | .hbm, ⟨34, _⟩ => ⟨S1, .f32⟩
  | .hbm, ⟨35, _⟩ => ⟨S1x1, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S1x1, .f32⟩
  | .hbm, ⟨40, _⟩ => ⟨S1, .f32⟩
  | .hbm, ⟨41, _⟩ => ⟨S1x1, .f32⟩
  | .hbm, ⟨42, _⟩ => ⟨S8192x32, .f32⟩
  | .hbm, ⟨43, _⟩ => ⟨S8192x32, .f32⟩
  | .hbm, ⟨44, _⟩ => ⟨S1x1, .f32⟩
  | .hbm, ⟨45, _⟩ => ⟨S1, .f32⟩
  | .hbm, ⟨46, _⟩ => ⟨S1x1, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x64, .f32⟩
  | .hbm, ⟨51, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S8192x64, .bf16⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S8192x64, .bf16⟩
  | .local _ .vmem, ⟨8, _⟩ => ⟨S256x64, .f32⟩
  | .local _ .vmem, ⟨9, _⟩ => ⟨S256x64, .f32⟩
  | .local _ .vmem, ⟨10, _⟩ => ⟨S256x8192, .f32⟩
  | .local _ .vmem, ⟨11, _⟩ => ⟨S256x8192, .f32⟩
  | .local _ .vmem, ⟨12, _⟩ => ⟨S8192x64, .bf16⟩
  | .local _ .vmem, ⟨13, _⟩ => ⟨S256x64, .f32⟩
  | .local _ .vmem, ⟨14, _⟩ => ⟨S256x64, .f32⟩
  | .local _ .vmem, ⟨15, _⟩ => ⟨S256x64, .f32⟩
  | .local _ .vmem, ⟨16, _⟩ => ⟨S256x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S8192x32_S8192x32_S8192x64_d1 : Shape.Concatenates [S8192x32, S8192x32] S8192x64 1
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  slices_S8192x64_S8192x32_0_0 : S8192x64.Slices ![0, 0] S8192x32
  slices_S8192x64_S8192x32_0_32 : S8192x64.Slices ![0, 32] S8192x32
  slices_S3x1_S1x1_2_0 : S3x1.Slices ![2, 0] S1x1
  shapeCasts_S1x1_S1 : S1x1.ShapeCasts S1
  bcast_S1_S1x1_1 : S1.BroadcastsInDim S1x1 (![1] : Fin 1 → Fin S1x1.rank)
  bcast_S1x1_S8192x32_0_1 : S1x1.BroadcastsInDim S8192x32 (![0, 1] : Fin 2 → Fin S8192x32.rank)
  slices_S3x1_S1x1_1_0 : S3x1.Slices ![1, 0] S1x1
  slices_S3x1_S1x1_0_0 : S3x1.Slices ![0, 0] S1x1
  shapeCasts_S256x64_S256x64 : S256x64.ShapeCasts S256x64
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S8192x64.size a
  hwx1_2 : ∀ i : grid1.Coords, EltTy.bits .f32 = 32 ∨ (Rect.block (s := S8192x64) S256x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S8192x64.size a
  hwx2_2 : ∀ i : grid2.Coords, EltTy.bits .f32 = 32 ∨ (Rect.block (s := S8192x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S8192x64.size a
  hwx2_3 : ∀ i : grid2.Coords, EltTy.bits .f32 = 32 ∨ (Rect.block (s := S8192x64) S256x64.size (cc2_transform_3 i) (hinb2_3 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S256x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x32 : Shape := ⟨2, ![8192, 32]⟩
abbrev S3x1 : Shape := ⟨2, ![3, 1]⟩
abbrev S1x1 : Shape := ⟨2, ![1, 1]⟩
abbrev S1 : Shape := ⟨1, ![1]⟩
abbrev S_ : Shape := ⟨0, ![]⟩
abbrev S8192x64 : Shape := ⟨2, ![8192, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S8192x32, .f32⟩
  | .hbm, ⟨4, _⟩ => ⟨S3x1, .f32⟩
  | .hbm, ⟨5, _⟩ => ⟨S3x1, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192x32, .f32⟩
  | .hbm, ⟨13, _⟩ => ⟨S8192x32, .f32⟩
  | .hbm, ⟨14, _⟩ => ⟨S1x1, .f32⟩
  | .hbm, ⟨15, _⟩ => ⟨S1, .f32⟩
  | .hbm, ⟨16, _⟩ => ⟨S1x1, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x1, .f32⟩
  | .hbm, ⟨22, _⟩ => ⟨S1, .f32⟩
  | .hbm, ⟨23, _⟩ => ⟨S1x1, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S1x1, .f32⟩
  | .hbm, ⟨30, _⟩ => ⟨S1, .f32⟩
  | .hbm, ⟨31, _⟩ => ⟨S1x1, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S1x1, .f32⟩
  | .hbm, ⟨37, _⟩ => ⟨S1, .f32⟩
  | .hbm, ⟨38, _⟩ => ⟨S1x1, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S1x1, .f32⟩
  | .hbm, ⟨45, _⟩ => ⟨S1, .f32⟩
  | .hbm, ⟨46, _⟩ => ⟨S1x1, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S8192x32_0_1 : S1x1.BroadcastsInDim S8192x32 (![0, 1] : Fin 2 → Fin S8192x32.rank)
  bcast_S_S8192x32 : S_.BroadcastsInDim S8192x32 (![] : Fin 0 → Fin S8192x32.rank)
  slices_S3x1_S1x1_1_0 : S3x1.Slices ![1, 0] S1x1
  slices_S3x1_S1x1_2_0 : S3x1.Slices ![2, 0] S1x1
  concatenates_S8192x32_S8192x32_S8192x64_d1 : Shape.Concatenates [S8192x32, S8192x32] S8192x64 1
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.ResultRun.lean ====
/-
  The kernel program's run, with its result array named.

  The program is three matrix-product passes among stretches of array operations. Its run ends, on every core, with each
  buffer at the contents obtained by folding the program over the launch memory: a stretch of array operations applies
  them in order, a pass replaces its output array by what its 32 row blocks wrote back and leaves every other buffer.
  Read at the result buffer, that fold is the result; read at an argument, it is the argument as launched.
-/
import proofs.«149938_g1580547969346_cont_sun_m_652_18_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; on every core the result buffer then holds
    the last boundary's contents at that buffer, and the six argument arrays are as launched. The segments, the thread
    states between them and the launch are the frame's; only the reading of the final state asks for one buffer more. -/
theorem run : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ResultRun

end
-- ==== Proof.Hops.lean ====
/-
  The vocabulary of this certificate's mathematics.

  Both programs compute, column by column, signed-graph propagation features: with `A` and `B` the two
  adjacency matrices (n × n) and `x` one column of a feature array, everything is built from ONE operation,
  the hop `x ↦ A · x`, whose entry at node `p` is `∑ k, A (p, k) · x k`. The arithmetic is that of the extended
  reals; an entry is called real when it is the coercion of a real number, and the one law that joins the two
  programs (a scalar moved across a hop) holds among real entries.
-/
import Idealize.ShloMosaic.PureOps.Ideal
import Idealize.ShloMosaic.Lib.ValueIdx

noncomputable section

namespace Cert.Hops

open Idealize.ShloMosaic Idealize.ShloMosaic.ValueIdx

/-- One hop: row `p` of the `n × n` array `A` against the column `x`. -/
def hop {n : Nat} (A : (⟨2, ![n, n]⟩ : Shape).Idx → EReal) (x : Fin n → EReal) (p : Fin n) : EReal :=
  ∑ k : Fin n, A (ix2 p k) * x k

/-- Column `q` of an `n × d` array. -/
def col {n d : Nat} (X : (⟨2, ![n, d]⟩ : Shape).Idx → EReal) (q : Fin d) : Fin n → EReal :=
  fun k => X (ix2 k q)

/-- An extended real that is a real number. -/
def IsReal (x : EReal) : Prop := ∃ r : ℝ, x = (r : EReal)

end Cert.Hops

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.BlockProduct.lean ====
/-
  A block of rows of a matrix product.

  Each of the three tiled regions computes one matrix product `A · X` (`A` is 8192 × 8192, `X` is 8192 × 64),
  256 rows at a time: grid point `t` loads rows `256 t … 256 t + 255` of `A` and all of `X`, multiplies them
  into a zero accumulator, and stores the 256 × 64 result as rows `256 t … 256 t + 255` of the output. At the
  extended reals the narrowing of the left operand to the shorter format is the identity, so entry `(p, q)` of
  the tile is `∑ k, A (256 t + p, k) · X (k, q)`: entry `(256 t + p, q)` of the whole product, which in the
  vocabulary of hops is the hop of `A` applied to column `q` of `X`, read at row `256 t + p`.

  Here is what the three regions share: the whole product as one array (`product`), the tile's arithmetic read
  at an entry (`tile_entry`), the step from "the tile's operands are a block of rows of `A` and all of `X`" to
  "the tile's entry is the product's entry" (`sum_eq_product`, `tile_eq_product`), and which block of rows holds a given row
  (`row_in_block`, `block_lt`).
-/
import proofs.«149938_g1580547969346_cont_sun_m_652_18_alg».proof.Proof.Gen.KernelIdeal.Frame
import proofs.«149938_g1580547969346_cont_sun_m_652_18_alg».proof.Proof.Hops
import proofs.«149938_g1580547969346_cont_sun_m_652_18_alg».proof.Proof.LibPlainDot
import Idealize.ShloMosaic.Lib.Pipeline.Value
import Idealize.ShloMosaic.Lib.ValueIdx

noncomputable section

open Idealize.ShloMosaic Idealize.ShloMosaic.ValueIdx Cert.Hops

namespace Cert.KernelIdeal.RegionValue

open Cert.KernelIdeal

/-- Every access of the three bodies starts at offset `(0, 0)` of its buffer: the constant-zero offset. -/
theorem origin : (![0, 0] : Fin 2 → Nat) = fun _ => 0 := funext fun a => by fin_cases a <;> rfl

/-- The dimension numbers of the bodies' matmul are those of a plain product: the left operand's columns
    against the right operand's rows, no batch axis. -/
theorem plain_dims :
    Cert.PlainDot.IsPlain (M := 256) (K := 8192) (N := 64) dot_S256x8192_S8192x64_S256x64_1_0_0_1_n_n :=
  ⟨rfl, rfl, rfl, rfl, rfl, rfl⟩

/-- The matrix product `A · X` as one whole array: entry `(r, j)` is the hop of `A` applied to column `j` of
    `X`, read at row `r`, that is `∑ k, A (r, k) · X (k, j)`. -/
def product (A : S8192x8192.Idx → EReal) (X : S8192x64.Idx → EReal) : S8192x64.Idx → EReal :=
  fun i => hop A (col X (i 1)) (i 0)

/-- The product at an entry given by its coordinates. -/
theorem product_apply (A : S8192x8192.Idx → EReal) (X : S8192x64.Idx → EReal) (r : Fin 8192) (j : Fin 64) :
    product A X (ix2 r j) = hop A (col X j) r := rfl

/-- The tile's arithmetic at entry `(p, q)`: the left operand narrowed (the identity at the extended reals),
    the right operand cast to its own shape (the identity), multiplied into the zero accumulator — the sum
    over `k < 8192` of the operands' products. -/
theorem tile_entry (x0 : Vec Ideal S256x8192 .f32) (x1 : Vec Ideal S8192x64 .bf16)
    (hnarrow : FTy.bits .bf16 < FTy.bits .f32) (hcast : S8192x64.ShapeCasts S8192x64) (p : Fin 256) (q : Fin 64) :
    (matmul dot_S256x8192_S8192x64_S256x64_1_0_0_1_n_n none (truncf .bf16 x0 hnarrow : FVec Ideal S256x8192 .bf16)
        (shapeCast S8192x64 x1 hcast : FVec Ideal S8192x64 .bf16) (constant S256x64 .f32 0x00000000#32)
      : FVec Ideal S256x64 .f32) (ix2 p q)
      = ∑ k : Fin 8192, x0 (ix2 p k) * x1 (ix2 k q) := by
  rw [shapeCast_self]
  refine (Ideal.matmul_constant_zero_apply (φ₁ := .bf16) (φ₂ := .bf16)
    dot_S256x8192_S8192x64_S256x64_1_0_0_1_n_n none _ _ (ix2 p q)).trans ?_
  exact Cert.PlainDot.sum_contr _ plain_dims _ _ p q

/-- The sum `∑ k, x0 (p, k) · x1 (k, q)`, where row `p` of `x0` is row `i 0` of `A` and column `q` of `x1` is column
    `i 1` of `X`, is the product's entry `i`. -/
theorem sum_eq_product (A : S8192x8192.Idx → EReal) (X : S8192x64.Idx → EReal)
    (x0 : Vec Ideal S256x8192 .f32) (x1 : Vec Ideal S8192x64 .bf16) (p : Fin 256) (q : Fin 64) (i : S8192x64.Idx)
    (hrow : ∀ k : Fin 8192, x0 (ix2 p k) = A (ix2 (i 0) k))
    (hcol : ∀ k : Fin 8192, x1 (ix2 k q) = X (ix2 k (i 1))) :
    ∑ k : Fin 8192, x0 (ix2 p k) * x1 (ix2 k q) = product A X i := by
  show _ = ∑ k : Fin 8192, A (ix2 (i 0) k) * X (ix2 k (i 1))
  exact Finset.sum_congr rfl fun k _ => congrArg₂ (· * ·) (hrow k) (hcol k)

/-- A tile whose entry `(p, q)` is `∑ k, x0 (p, k) · x1 (k, q)`, where row `y 0` of `x0` is row `i 0` of `A` and
    column `y 1` of `x1` is column `i 1` of `X`, holds at `y` the product's entry `i`. -/
theorem tile_eq_product (A : S8192x8192.Idx → EReal) (X : S8192x64.Idx → EReal)
    (tile : FVec Ideal S256x64 .f32) (x0 : Vec Ideal S256x8192 .f32) (x1 : Vec Ideal S8192x64 .bf16)
    (htile : ∀ (p : Fin 256) (q : Fin 64), tile (ix2 p q) = ∑ k : Fin 8192, x0 (ix2 p k) * x1 (ix2 k q))
    (y : S256x64.Idx) (i : S8192x64.Idx)
    (hrow : ∀ k : Fin 8192, x0 (ix2 (y 0) k) = A (ix2 (i 0) k))
    (hcol : ∀ k : Fin 8192, x1 (ix2 k (y 1)) = X (ix2 k (i 1))) :
    tile y = product A X i := by
  obtain ⟨p, q, rfl⟩ : ∃ (p : Fin 256) (q : Fin 64), y = ix2 p q := ⟨y 0, y 1, eq_ix2 y⟩
  rw [htile]
  exact sum_eq_product A X x0 x1 p q i hrow hcol

/-- Row `r` lies in the block of 256 rows number `r / 256`. -/
theorem row_in_block (r : Nat) : r / 256 * 256 ≤ r ∧ r < r / 256 * 256 + 256 := by omega

/-- The 8192 rows make 32 blocks of 256. -/
theorem block_lt (r : Nat) (h : r < 8192) : r / 256 < 32 := by omega

end Cert.KernelIdeal.RegionValue

end
-- ==== Proof.Region0.lean ====
/-
  Region 0: what the region leaves in its output array, entry by entry.

  The region's 32 grid points each multiply a block of 256 rows of the 8192 × 8192 array `A` by the whole
  8192 × 64 array `X` and write the 256 × 64 tile back as the same 256 rows of the output. So the output array
  ends holding the whole product: entry `(p, q)` is the hop of `A` applied to column `q` of `X`, read at row `p`.
  The steps: the body's payload at an entry (`pay0_entry`); where the three windows' blocks sit at point `t`
  (`block_index0`: rows `256 t …` of `A`, all of `X`, rows `256 t …` of the output); what point `t` writes
  back is its block of the product (`flushed0_eq`); the blocks cover the output array (`covered0`); hence
  the array is the product (`final0`), read at an entry (`region0_entry`).
-/
import proofs.«149938_g1580547969346_cont_sun_m_652_18_alg».proof.Proof.Gen.KernelIdeal.Frame
import proofs.«149938_g1580547969346_cont_sun_m_652_18_alg».proof.Proof.Hops
import proofs.«149938_g1580547969346_cont_sun_m_652_18_alg».proof.Proof.LibPlainDot
import proofs.«149938_g1580547969346_cont_sun_m_652_18_alg».proof.Proof.BlockProduct
import Idealize.ShloMosaic.Lib.Pipeline.Value
import Idealize.ShloMosaic.Lib.ValueIdx

noncomputable section

open Idealize.ShloMosaic Idealize.ShloMosaic.TcCoe Idealize.SL.Sem Idealize.ShloMosaic.ValueIdx Cert.Hops

namespace Cert.KernelIdeal.RegionValue

open Cert.KernelIdeal Cert.KernelIdeal.Gen

/-- The body's payload at entry `(p, q)` of the tile: the sum over `k < 8192` of the loaded operands' products. -/
theorem pay0_entry (x0 : Vec Ideal S256x8192 .f32) (x1 : Vec Ideal S8192x64 .bf16) (p : Fin 256) (q : Fin 64) :
    k0_pay1 x0 x1 (ix2 p q) = ∑ k : Fin 8192, x0 (ix2 p k) * x1 (ix2 k q) := by
  unfold k0_pay1
  exact tile_entry x0 x1 _ _ p q

/-- The block indices of the three windows at grid point `t`, decided over the 32 points: the left operand's
    and the output's blocks are block row `t`, the right operand's block is the whole array. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is its block of the product of the arrays as the region finds them: the
    tile's entry `y` sits at the output's index `(256 t + y 0, y 1)`, the left block's row `y 0` is row
    `256 t + y 0` of `A`, and the right block is all of `X`. -/
theorem flushed0_eq (c : Dev nD) (t : Fin cfg0.N) :
    (dat0 (F := Ideal) V c).flushed 2 t
      = ((cfg0.win 2).blk t).view.read (Elt Ideal) (product (V c main_arg0) (V c main_v1)) := by
  show (cfg0.win 2).cut (grid0.coords t) ((dat0 V c).after 2 t) = _
  rw [after0_2]
  unfold out0_2
  rw [View.canon_unit_zero origin]
  simp only [View.ld_unit_zero (S := S256x8192) origin, View.ld_unit_zero (S := S8192x64) origin]
  funext y
  obtain ⟨e00, e01, e10, e11, e20, e21⟩ := block_index0 t
  refine tile_eq_product (V c main_arg0) (V c main_v1) _ (iblk0 V c 0 t) (iblk0 V c 1 t)
    (pay0_entry _ _) ((win0 2).xinj (grid0.coords t) y) (((cfg0.win 2).blk t).view.emb y)
    (fun k => ?_) (fun k => ?_)
  · -- row `y 0` of the left block is row `256 t + y 0` of `A`, the output's row
    show V c main_arg0 (((cfg0.win 0).blk t).view.emb (ix2 _ k)) = _
    refine congrArg _ (funext fun a => Fin.ext ?_)
    match a with
    | ⟨0, _⟩ =>
      show win0_0.index t (0 : Fin 2) * 256 + 1 * (y 0).val = win0_2.index t (0 : Fin 2) * 256 + 1 * (y 0).val
      omega
    | ⟨1, _⟩ =>
      show win0_0.index t (1 : Fin 2) * 8192 + 1 * k.val = k.val
      omega
  · -- the right block is the whole of `X`, and the output's column is the tile's
    show V c main_v1 (((cfg0.win 1).blk t).view.emb (ix2 k _)) = _
    refine congrArg _ (funext fun a => Fin.ext ?_)
    match a with
    | ⟨0, _⟩ =>
      show win0_1.index t (0 : Fin 2) * 8192 + 1 * k.val = k.val
      omega
    | ⟨1, _⟩ =>
      show win0_1.index t (1 : Fin 2) * 64 + 1 * (y 1).val = win0_2.index t (1 : Fin 2) * 64 + 1 * (y 1).val
      omega

/-- An index of the output array lies in the block of point `t` iff, on each axis, its coordinate lies in the
    block's range. -/
theorem mem_block0 (t : Fin cfg0.N) (i : S8192x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v2).slice (win0_2.rect t)).set ↔ _
  rw [View.set_slice_whole, Rect.mem_set_unit]
  exact Iff.rfl

/-- Every entry of the output array lies in some point's block: row `r` is in the block of point `r / 256`,
    and a block spans all 64 columns. -/
theorem covered0 (i : S8192x64.Idx) :
    ∃ t : Fin cfg0.N, (cfg0.win 2).flush t = true ∧ i ∈ ((cfg0.win 2).blk t).view.set := by
  have hcol : (i 1).val < 64 := (i 1).isLt
  have ht : (i 0).val / 256 < cfg0.N := by
    show _ < grid0.N
    rw [N_0]
    exact block_lt _ (i 0).isLt
  obtain ⟨-, -, -, -, e20, e21⟩ := block_index0 ⟨(i 0).val / 256, ht⟩
  refine ⟨⟨(i 0).val / 256, ht⟩, flush0_2 _, ?_⟩
  rw [mem_block0]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e20]
    exact row_in_block _
  | ⟨1, _⟩ =>
    show win0_2.index ⟨(i 0).val / 256, ht⟩ (1 : Fin 2) * 64 ≤ (i 1).val
      ∧ (i 1).val < win0_2.index ⟨(i 0).val / 256, ht⟩ (1 : Fin 2) * 64 + 64
    rw [e21]
    omega

/-- The output array after the region is the whole product of the arrays the region finds. -/
theorem final0 (c : Dev nD) :
    (dat0 (F := Ideal) V c).arrAt 2 cfg0.N = product (V c main_arg0) (V c main_v1) :=
  (dat0 V c).arrAt_eq_of_cover 2 (product (V c main_arg0) (V c main_v1)) (fun t _ => flushed0_eq V c t) covered0

/-- Entry `(p, q)` of the region's output: the hop of `A` applied to column `q` of `X`, read at row `p`. -/
theorem region0_entry (c : Dev nD) (p : Fin 8192) (q : Fin 64) :
    ((dat0 (F := Ideal) V c).arrAt 2 cfg0.N : S8192x64.Idx → EReal) (ix2 p q)
      = hop (V c main_arg0 : S8192x8192.Idx → EReal) (col (V c main_v1 : S8192x64.Idx → EReal) q) p := by
  rw [final0]
  rfl

end Cert.KernelIdeal.RegionValue

end
-- ==== Proof.Region1.lean ====
/-
  Region 1: what the region leaves in its output array, entry by entry.

  The region's 32 grid points each multiply a block of 256 rows of the 8192 × 8192 array `A` by the whole
  8192 × 64 array `X` and write the 256 × 64 tile back as the same 256 rows of the output. So the output array
  ends holding the whole product: entry `(p, q)` is the hop of `A` applied to column `q` of `X`, read at row `p`.
  The steps: the body's payload at an entry (`pay1_entry`); where the three windows' blocks sit at point `t`
  (`block_index1`: rows `256 t …` of `A`, all of `X`, rows `256 t …` of the output); what point `t` writes
  back is its block of the product (`flushed1_eq`); the blocks cover the output array (`covered1`); hence
  the array is the product (`final1`), read at an entry (`region1_entry`).
-/
import proofs.«149938_g1580547969346_cont_sun_m_652_18_alg».proof.Proof.Gen.KernelIdeal.Frame
import proofs.«149938_g1580547969346_cont_sun_m_652_18_alg».proof.Proof.Hops
import proofs.«149938_g1580547969346_cont_sun_m_652_18_alg».proof.Proof.LibPlainDot
import proofs.«149938_g1580547969346_cont_sun_m_652_18_alg».proof.Proof.BlockProduct
import Idealize.ShloMosaic.Lib.Pipeline.Value
import Idealize.ShloMosaic.Lib.ValueIdx

noncomputable section

open Idealize.ShloMosaic Idealize.ShloMosaic.TcCoe Idealize.SL.Sem Idealize.ShloMosaic.ValueIdx Cert.Hops

namespace Cert.KernelIdeal.RegionValue

open Cert.KernelIdeal Cert.KernelIdeal.Gen

/-- The body's payload at entry `(p, q)` of the tile: the sum over `k < 8192` of the loaded operands' products. -/
theorem pay1_entry (x0 : Vec Ideal S256x8192 .f32) (x1 : Vec Ideal S8192x64 .bf16) (p : Fin 256) (q : Fin 64) :
    k1_pay1 x0 x1 (ix2 p q) = ∑ k : Fin 8192, x0 (ix2 p k) * x1 (ix2 k q) := by
  unfold k1_pay1
  exact tile_entry x0 x1 _ _ p q

/-- The block indices of the three windows at grid point `t`, decided over the 32 points: the left operand's
    and the output's blocks are block row `t`, the right operand's block is the whole array. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is its block of the product of the arrays as the region finds them: the
    tile's entry `y` sits at the output's index `(256 t + y 0, y 1)`, the left block's row `y 0` is row
    `256 t + y 0` of `A`, and the right block is all of `X`. -/
theorem flushed1_eq (c : Dev nD) (t : Fin cfg1.N) :
    (dat1 (F := Ideal) V c).flushed 2 t
      = ((cfg1.win 2).blk t).view.read (Elt Ideal) (product (V c main_arg1) (V c main_v6)) := by
  show (cfg1.win 2).cut (grid1.coords t) ((dat1 V c).after 2 t) = _
  rw [after1_2]
  unfold out1_2
  rw [View.canon_unit_zero origin]
  simp only [View.ld_unit_zero (S := S256x8192) origin, View.ld_unit_zero (S := S8192x64) origin]
  funext y
  obtain ⟨e00, e01, e10, e11, e20, e21⟩ := block_index1 t
  refine tile_eq_product (V c main_arg1) (V c main_v6) _ (iblk1 V c 0 t) (iblk1 V c 1 t)
    (pay1_entry _ _) ((win1 2).xinj (grid1.coords t) y) (((cfg1.win 2).blk t).view.emb y)
    (fun k => ?_) (fun k => ?_)
  · -- row `y 0` of the left block is row `256 t + y 0` of `A`, the output's row
    show V c main_arg1 (((cfg1.win 0).blk t).view.emb (ix2 _ k)) = _
    refine congrArg _ (funext fun a => Fin.ext ?_)
    match a with
    | ⟨0, _⟩ =>
      show win1_0.index t (0 : Fin 2) * 256 + 1 * (y 0).val = win1_2.index t (0 : Fin 2) * 256 + 1 * (y 0).val
      omega
    | ⟨1, _⟩ =>
      show win1_0.index t (1 : Fin 2) * 8192 + 1 * k.val = k.val
      omega
  · -- the right block is the whole of `X`, and the output's column is the tile's
    show V c main_v6 (((cfg1.win 1).blk t).view.emb (ix2 k _)) = _
    refine congrArg _ (funext fun a => Fin.ext ?_)
    match a with
    | ⟨0, _⟩ =>
      show win1_1.index t (0 : Fin 2) * 8192 + 1 * k.val = k.val
      omega
    | ⟨1, _⟩ =>
      show win1_1.index t (1 : Fin 2) * 64 + 1 * (y 1).val = win1_2.index t (1 : Fin 2) * 64 + 1 * (y 1).val
      omega

/-- An index of the output array lies in the block of point `t` iff, on each axis, its coordinate lies in the
    block's range. -/
theorem mem_block1 (t : Fin cfg1.N) (i : S8192x64.Idx) :
    i ∈ ((cfg1.win 2).blk t).view.set ↔ ∀ a : Fin 2, win1_2.index t a * S256x64.size a ≤ (i a).val
      ∧ (i a).val < win1_2.index t a * S256x64.size a + S256x64.size a := by
  show i ∈ ((View.whole main_v7).slice (win1_2.rect t)).set ↔ _
  rw [View.set_slice_whole, Rect.mem_set_unit]
  exact Iff.rfl

/-- Every entry of the output array lies in some point's block: row `r` is in the block of point `r / 256`,
    and a block spans all 64 columns. -/
theorem covered1 (i : S8192x64.Idx) :
    ∃ t : Fin cfg1.N, (cfg1.win 2).flush t = true ∧ i ∈ ((cfg1.win 2).blk t).view.set := by
  have hcol : (i 1).val < 64 := (i 1).isLt
  have ht : (i 0).val / 256 < cfg1.N := by
    show _ < grid1.N
    rw [N_1]
    exact block_lt _ (i 0).isLt
  obtain ⟨-, -, -, -, e20, e21⟩ := block_index1 ⟨(i 0).val / 256, ht⟩
  refine ⟨⟨(i 0).val / 256, ht⟩, flush1_2 _, ?_⟩
  rw [mem_block1]
  intro a
  match a with
  | ⟨0, _⟩ =>
    show win1_2.index ⟨(i 0).val / 256, ht⟩ (0 : Fin 2) * 256 ≤ (i 0).val
      ∧ (i 0).val < win1_2.index ⟨(i 0).val / 256, ht⟩ (0 : Fin 2) * 256 + 256
    rw [e20]
    exact row_in_block _
  | ⟨1, _⟩ =>
    show win1_2.index ⟨(i 0).val / 256, ht⟩ (1 : Fin 2) * 64 ≤ (i 1).val
      ∧ (i 1).val < win1_2.index ⟨(i 0).val / 256, ht⟩ (1 : Fin 2) * 64 + 64
    rw [e21]
    omega

/-- The output array after the region is the whole product of the arrays the region finds. -/
theorem final1 (c : Dev nD) :
    (dat1 (F := Ideal) V c).arrAt 2 cfg1.N = product (V c main_arg1) (V c main_v6) :=
  (dat1 V c).arrAt_eq_of_cover 2 (product (V c main_arg1) (V c main_v6)) (fun t _ => flushed1_eq V c t) covered1

/-- Entry `(p, q)` of the region's output: the hop of `A` applied to column `q` of `X`, read at row `p`. -/
theorem region1_entry (c : Dev nD) (p : Fin 8192) (q : Fin 64) :
    ((dat1 (F := Ideal) V c).arrAt 2 cfg1.N : S8192x64.Idx → EReal) (ix2 p q)
      = hop (V c main_arg1 : S8192x8192.Idx → EReal) (col (V c main_v6 : S8192x64.Idx → EReal) q) p := by
  rw [final1]
  rfl

end Cert.KernelIdeal.RegionValue

end
-- ==== Proof.Region2.lean ====
/-
  Region 2: what the region leaves in its output array, entry by entry.

  The region's 32 grid points each multiply a block of 256 rows of the 8192 × 8192 array `A` by the whole
  8192 × 64 array `X`, add the same 256 rows of the 8192 × 64 array `B` (the bias), and write the 256 × 64 tile
  back as the same 256 rows of the output. So the output array ends holding `B + A · X`: entry `(p, q)` is
  `B (p, q)` plus the hop of `A` applied to column `q` of `X`, read at row `p`.
  The steps: the body's payload at an entry (`pay2_entry`); where the four windows' blocks sit at point `t`
  (`block_index2`: rows `256 t …` of `A`, all of `X`, rows `256 t …` of `B` and of the output); the tile against
  the whole array (`biased_tile_eq`); what point `t` writes back is its block of `B + A · X` (`flushed2_eq`); the
  blocks cover the output array (`covered2`); hence the array is `B + A · X` (`final2`), read at an entry
  (`region2_entry`).
-/
import proofs.«149938_g1580547969346_cont_sun_m_652_18_alg».proof.Proof.Gen.KernelIdeal.Frame
import proofs.«149938_g1580547969346_cont_sun_m_652_18_alg».proof.Proof.Hops
import proofs.«149938_g1580547969346_cont_sun_m_652_18_alg».proof.Proof.LibPlainDot
import proofs.«149938_g1580547969346_cont_sun_m_652_18_alg».proof.Proof.BlockProduct
import Idealize.ShloMosaic.Lib.Pipeline.Value
import Idealize.ShloMosaic.Lib.ValueIdx

noncomputable section

open Idealize.ShloMosaic Idealize.ShloMosaic.TcCoe Idealize.SL.Sem Idealize.ShloMosaic.ValueIdx Cert.Hops

namespace Cert.KernelIdeal.RegionValue

open Cert.KernelIdeal Cert.KernelIdeal.Gen

/-- The biased product `B + A · X` as one whole array: entry `i` is `B i` plus the product's entry `i`. -/
def biasedProduct (B : S8192x64.Idx → EReal) (A : S8192x8192.Idx → EReal) (X : S8192x64.Idx → EReal) :
    S8192x64.Idx → EReal :=
  fun i => B i + product A X i

/-- The body's payload at entry `(p, q)` of the tile: the bias block's entry (its cast to its own shape is the
    identity) plus the sum over `k < 8192` of the loaded operands' products. -/
theorem pay2_entry (xb : Vec Ideal S256x64 .f32) (x0 : Vec Ideal S256x8192 .f32) (x1 : Vec Ideal S8192x64 .bf16)
    (p : Fin 256) (q : Fin 64) :
    k2_pay1 xb x0 x1 (ix2 p q) = xb (ix2 p q) + ∑ k : Fin 8192, x0 (ix2 p k) * x1 (ix2 k q) := by
  unfold k2_pay1
  rw [addf_apply, shapeCast_self xb, tile_entry]

/-- The block indices of the four windows at grid point `t`, decided over the 32 points: the left operand's,
    the bias's and the output's blocks are block row `t`, the right operand's block is the whole array. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A tile computed from a bias block `xb`, a left block `x0` and a right block `x1`, where `xb` at `y` is `B` at
    `i`, row `y 0` of `x0` is row `i 0` of `A` and column `y 1` of `x1` is column `i 1` of `X`, holds at `y` the
    biased product's entry `i`. -/
theorem biased_tile_eq (B : S8192x64.Idx → EReal) (A : S8192x8192.Idx → EReal) (X : S8192x64.Idx → EReal)
    (xb : Vec Ideal S256x64 .f32) (x0 : Vec Ideal S256x8192 .f32) (x1 : Vec Ideal S8192x64 .bf16)
    (y : S256x64.Idx) (i : S8192x64.Idx)
    (hbias : xb y = B i)
    (hrow : ∀ k : Fin 8192, x0 (ix2 (y 0) k) = A (ix2 (i 0) k))
    (hcol : ∀ k : Fin 8192, x1 (ix2 k (y 1)) = X (ix2 k (i 1))) :
    k2_pay1 xb x0 x1 y = biasedProduct B A X i := by
  obtain ⟨p, q, rfl⟩ : ∃ (p : Fin 256) (q : Fin 64), y = ix2 p q := ⟨y 0, y 1, eq_ix2 y⟩
  rw [pay2_entry, hbias, sum_eq_product A X x0 x1 p q i hrow hcol]
  rfl

variable (V : (c : Dev nD) → (b : Ref sig .tc) → Buf (Elt Ideal) ((c : Thread nD τ).loc b))

/-- What grid point `t` writes back is its block of the biased product of the arrays as the region finds them:
    the tile's entry `y` sits at the output's index `(256 t + y 0, y 1)`, the bias block's entry `y` is `B` at
    that index, the left block's row `y 0` is row `256 t + y 0` of `A`, and the right block is all of `X`. -/
theorem flushed2_eq (c : Dev nD) (t : Fin cfg2.N) :
    (dat2 (F := Ideal) V c).flushed 3 t
      = ((cfg2.win 3).blk t).view.read (Elt Ideal)
          (biasedProduct (V c main_v44) (V c main_arg0) (V c main_v21)) := by
  show (cfg2.win 3).cut (grid2.coords t) ((dat2 V c).after 3 t) = _
  rw [after2_3]
  unfold out2_3
  rw [View.canon_unit_zero origin]
  simp only [View.ld_unit_zero (S := S256x8192) origin, View.ld_unit_zero (S := S8192x64) origin,
    View.ld_unit_zero (S := S256x64) origin]
  funext y
  obtain ⟨e00, e01, e10, e11, e20, e21, e30, e31⟩ := block_index2 t
  refine biased_tile_eq (V c main_v44) (V c main_arg0) (V c main_v21)
    (iblk2 V c 2 t) (iblk2 V c 0 t) (iblk2 V c 1 t)
    ((win2 3).xinj (grid2.coords t) y) (((cfg2.win 3).blk t).view.emb y) ?_ (fun k => ?_) (fun k => ?_)
  · -- the bias block moves with the output block
    show V c main_v44 (((cfg2.win 2).blk t).view.emb ((win2 3).xinj (grid2.coords t) y)) = _
    refine congrArg _ (funext fun a => Fin.ext ?_)
    match a with
    | ⟨0, _⟩ =>
      show win2_2.index t (0 : Fin 2) * 256 + 1 * (y 0).val = win2_3.index t (0 : Fin 2) * 256 + 1 * (y 0).val
      omega
    | ⟨1, _⟩ =>
      show win2_2.index t (1 : Fin 2) * 64 + 1 * (y 1).val = win2_3.index t (1 : Fin 2) * 64 + 1 * (y 1).val
      omega
  · -- row `y 0` of the left block is row `256 t + y 0` of `A`, the output's row
    show V c main_arg0 (((cfg2.win 0).blk t).view.emb (ix2 _ k)) = _
    refine congrArg _ (funext fun a => Fin.ext ?_)
    match a with
    | ⟨0, _⟩ =>
      show win2_0.index t (0 : Fin 2) * 256 + 1 * (y 0).val = win2_3.index t (0 : Fin 2) * 256 + 1 * (y 0).val
      omega
    | ⟨1, _⟩ =>
      show win2_0.index t (1 : Fin 2) * 8192 + 1 * k.val = k.val
      omega
  · -- the right block is the whole of `X`, and the output's column is the tile's
    show V c main_v21 (((cfg2.win 1).blk t).view.emb (ix2 k _)) = _
    refine congrArg _ (funext fun a => Fin.ext ?_)
    match a with
    | ⟨0, _⟩ =>
      show win2_1.index t (0 : Fin 2) * 8192 + 1 * k.val = k.val
      omega
    | ⟨1, _⟩ =>
      show win2_1.index t (1 : Fin 2) * 64 + 1 * (y 1).val = win2_3.index t (1 : Fin 2) * 64 + 1 * (y 1).val
      omega

/-- An index of the output array lies in the block of point `t` iff, on each axis, its coordinate lies in the
    block's range. -/
theorem mem_block2 (t : Fin cfg2.N) (i : S8192x64.Idx) :
    i ∈ ((cfg2.win 3).blk t).view.set ↔ ∀ a : Fin 2, win2_3.index t a * S256x64.size a ≤ (i a).val
      ∧ (i a).val < win2_3.index t a * S256x64.size a + S256x64.size a := by
  show i ∈ ((View.whole main_v45).slice (win2_3.rect t)).set ↔ _
  rw [View.set_slice_whole, Rect.mem_set_unit]
  exact Iff.rfl

/-- Every entry of the output array lies in some point's block: row `r` is in the block of point `r / 256`,
    and a block spans all 64 columns. -/
theorem covered2 (i : S8192x64.Idx) :
    ∃ t : Fin cfg2.N, (cfg2.win 3).flush t = true ∧ i ∈ ((cfg2.win 3).blk t).view.set := by
  have hcol : (i 1).val < 64 := (i 1).isLt
  have ht : (i 0).val / 256 < cfg2.N := by
    show _ < grid2.N
    rw [N_2]
    exact block_lt _ (i 0).isLt
  obtain ⟨-, -, -, -, -, -, e30, e31⟩ := block_index2 ⟨(i 0).val / 256, ht⟩
  refine ⟨⟨(i 0).val / 256, ht⟩, flush2_3 _, ?_⟩
  rw [mem_block2]
  intro a
  match a with
  | ⟨0, _⟩ =>
    show win2_3.index ⟨(i 0).val / 256, ht⟩ (0 : Fin 2) * 256 ≤ (i 0).val
      ∧ (i 0).val < win2_3.index ⟨(i 0).val / 256, ht⟩ (0 : Fin 2) * 256 + 256
    rw [e30]
    exact row_in_block _
  | ⟨1, _⟩ =>
    show win2_3.index ⟨(i 0).val / 256, ht⟩ (1 : Fin 2) * 64 ≤ (i 1).val
      ∧ (i 1).val < win2_3.index ⟨(i 0).val / 256, ht⟩ (1 : Fin 2) * 64 + 64
    rw [e31]
    omega

/-- The output array after the region is the whole biased product of the arrays the region finds. -/
theorem final2 (c : Dev nD) :
    (dat2 (F := Ideal) V c).arrAt 3 cfg2.N = biasedProduct (V c main_v44) (V c main_arg0) (V c main_v21) :=
  (dat2 V c).arrAt_eq_of_cover 3 (biasedProduct (V c main_v44) (V c main_arg0) (V c main_v21))
    (fun t _ => flushed2_eq V c t) covered2

/-- Entry `(p, q)` of the region's output: `B (p, q)` plus the hop of `A` applied to column `q` of `X`, read at
    row `p`. -/
theorem region2_entry (c : Dev nD) (p : Fin 8192) (q : Fin 64) :
    ((dat2 (F := Ideal) V c).arrAt 3 cfg2.N : S8192x64.Idx → EReal) (ix2 p q)
      = col (V c main_v44 : S8192x64.Idx → EReal) q p
        + hop (V c main_arg0 : S8192x8192.Idx → EReal) (col (V c main_v21 : S8192x64.Idx → EReal) q) p := by
  rw [final2]
  rfl

end Cert.KernelIdeal.RegionValue

end
-- ==== Proof.LibColumns.lean ====
/-
  Arrays of rows read entry by entry through the layout operations the two programs use.

  A feature array has n rows and d columns; the programs join two such arrays side by side into one of n rows and
  D = d + d columns, cut a d-column half back out of a joined array, and spread one entry of a small weight table over
  a whole n × d array. Each of these moves entries without changing them: the joined array's column q < d is the first
  piece's column q and its column d + q the second piece's column q; a cut starting at column `off` reads column
  `off + q`; a spread weight reads the table's entry (r, 0) everywhere. Stated for any n, d, D, so that one lemma
  serves every array of the certificate.
-/
import Idealize.ShloMosaic.PureOps.Ideal
import Idealize.ShloMosaic.Lib.ValueIdx
import Idealize.ShloMosaic.Lib.Pipeline.Value

noncomputable section

namespace Cert.Columns

open Idealize.ShloMosaic Idealize.ShloMosaic.ValueIdx

variable {n d D : Nat}

/-- Two n × d arrays joined along the columns, read at a column of the first half. -/
theorem joined_left (h : Shape.Concatenates [(⟨2, ![n, d]⟩ : Shape), ⟨2, ![n, d]⟩] ⟨2, ![n, D]⟩ 1)
    (a b : (⟨2, ![n, d]⟩ : Shape).Idx → EReal) (p : Fin n) (q : Fin d) (hq : q.val < D) :
    concatenate ⟨2, ![n, D]⟩ 1 [⟨⟨2, ![n, d]⟩, a⟩, ⟨⟨2, ![n, d]⟩, b⟩] h (ix2 p (⟨q.val, hq⟩ : Fin D)) = a (ix2 p q) :=
  concatenate_pair_apply_left 1 a b h _ rfl (ix2 p q) (fun c => match c with
    | ⟨0, _⟩ => rfl
    | ⟨1, _⟩ => rfl)

/-- Two n × d arrays joined along the columns, read at a column of the second half. -/
theorem joined_right (h : Shape.Concatenates [(⟨2, ![n, d]⟩ : Shape), ⟨2, ![n, d]⟩] ⟨2, ![n, D]⟩ 1)
    (a b : (⟨2, ![n, d]⟩ : Shape).Idx → EReal) (p : Fin n) (q : Fin d) (hq : d + q.val < D) :
    concatenate ⟨2, ![n, D]⟩ 1 [⟨⟨2, ![n, d]⟩, a⟩, ⟨⟨2, ![n, d]⟩, b⟩] h (ix2 p (⟨d + q.val, hq⟩ : Fin D)) = b (ix2 p q) :=
  concatenate_pair_apply_right 1 a b h _ rfl rfl (ix2 p q) (fun c hc => match c with
    | ⟨0, _⟩ => rfl
    | ⟨1, _⟩ => absurd rfl hc) (by show q.val + d = d + q.val; omega)

/-- A d-column piece cut out of an n × D array from column `off` on, read at column `q`. -/
theorem cut_apply (off : Nat) (h : (⟨2, ![n, D]⟩ : Shape).Slices ![0, off] ⟨2, ![n, d]⟩)
    (Y : (⟨2, ![n, D]⟩ : Shape).Idx → EReal) (p : Fin n) (q : Fin d) (hq : off + q.val < D) :
    extractStridedSlice ⟨2, ![n, d]⟩ ![0, off] Y h (ix2 p q) = Y (ix2 p (⟨off + q.val, hq⟩ : Fin D)) :=
  extractStridedSlice_apply ![0, off] Y h (ix2 p q) (ix2 p (⟨off + q.val, hq⟩ : Fin D)) (fun c => match c with
    | ⟨0, _⟩ => by show p.val = 0 + p.val; omega
    | ⟨1, _⟩ => rfl)

/-- Entry (r, 0) of a k × 1 weight table, cut out as a 1 × 1 array, flattened to one entry, made 1 × 1 again and
    spread over an n × d array: every entry of the result is that weight. -/
theorem spread_apply {k : Nat} (r : Nat) (hr : r < k) (w : (⟨2, ![k, 1]⟩ : Shape).Idx → EReal)
    (hs : (⟨2, ![k, 1]⟩ : Shape).Slices ![r, 0] ⟨2, ![1, 1]⟩)
    (hc : (⟨2, ![1, 1]⟩ : Shape).ShapeCasts ⟨1, ![1]⟩)
    (hb1 : (⟨1, ![1]⟩ : Shape).BroadcastsInDim ⟨2, ![1, 1]⟩ ![1])
    (hb2 : (⟨2, ![1, 1]⟩ : Shape).BroadcastsInDim ⟨2, ![n, d]⟩ ![0, 1]) (p : Fin n) (q : Fin d) :
    broadcastInDim ⟨2, ![n, d]⟩ ![0, 1] hb2
        (broadcastInDim ⟨2, ![1, 1]⟩ ![1] hb1
          (shapeCast ⟨1, ![1]⟩ (extractStridedSlice ⟨2, ![1, 1]⟩ ![r, 0] w hs) hc)) (ix2 p q)
      = w (ix2 (⟨r, hr⟩ : Fin k) (0 : Fin 1)) := by
  rw [broadcastInDim_apply ![0, 1] hb2 _ (ix2 p q) (ix2 (0 : Fin 1) (0 : Fin 1)) (fun c => match c with
      | ⟨0, _⟩ => by show 0 = if (1 : Nat) = 1 then 0 else p.val; rw [if_pos rfl]
      | ⟨1, _⟩ => by show 0 = if (1 : Nat) = 1 then 0 else q.val; rw [if_pos rfl]),
    broadcastInDim_apply ![1] hb1 _ (ix2 (0 : Fin 1) (0 : Fin 1)) (ix1 (0 : Fin 1)) (fun c => match c with
      | ⟨0, _⟩ => by show 0 = if (1 : Nat) = 1 then 0 else 0; rw [if_pos rfl]),
    shapeCast_apply _ hc (ix1 (0 : Fin 1)) (ix2 (0 : Fin 1) (0 : Fin 1))
      (by rewrite [Shape.rowMajor_val_two, Shape.rowMajor_val_one]; rfl)]
  exact extractStridedSlice_apply ![r, 0] w hs _ (ix2 (⟨r, hr⟩ : Fin k) (0 : Fin 1)) (fun c => match c with
    | ⟨0, _⟩ => by show r = r + 0; omega
    | ⟨1, _⟩ => rfl)

end Cert.Columns

end
-- ==== Proof.KernelColumns.lean ====
/-
  The kernel program's arrays, column by column.

  With A, B the two adjacency matrices, x_p and x_n the two feature arrays (32 columns each) and w, u the two weight
  tables, the program runs three matrix-product passes over arrays of 64 columns, each a pair of 32-column halves:

    pass 1:  Y1 = A · [x_p | x_n]                     so Y1 = [A x_p | A x_n]
    pass 2:  Y2 = B · [x_n | right half of Y1]        so Y2 = [B x_n | B (A x_n)]
    pass 3:  OUT = PQ + A · [w2 · left half of Y1 | u1 · left half of Y2]
             with PQ = [w0 · x_p + w1 · left half of Y1 | u0 · left half of Y2 + u2 · right half of Y2].

  A matrix product acts on each column of its right operand by itself, so everything is read one column at a time: a
  column of a joined array is a column of one of its halves, a column of a half is a column of the whole, the rounding to
  a shorter float format is the identity on extended reals, and a product of a spread weight with an array scales each
  entry. What comes out, for a column q of x_p (left half) or of x_n (right half), is stated by `out_left` and
  `out_right` in the vocabulary of hops.
-/
import proofs.«149938_g1580547969346_cont_sun_m_652_18_alg».proof.Proof.Gen.KernelIdeal
import proofs.«149938_g1580547969346_cont_sun_m_652_18_alg».proof.Proof.Hops
import proofs.«149938_g1580547969346_cont_sun_m_652_18_alg».proof.Proof.LibColumns

noncomputable section

namespace Cert.KernelIdeal.Columns

open Idealize.ShloMosaic Idealize.ShloMosaic.ValueIdx Cert.Hops Cert.KernelIdeal
open Cert.KernelIdeal.Facts₀ Cert.KernelIdeal.Facts

/-! ## The program's array operations, named -/

/-- Two 32-column arrays side by side. -/
def joined (a b : S8192x32.Idx → EReal) : S8192x64.Idx → EReal :=
  concatenate S8192x64 1 [⟨S8192x32, a⟩, ⟨S8192x32, b⟩] concatenates_S8192x32_S8192x32_S8192x64_d1

/-- Columns 0–31 of a 64-column array. -/
def leftHalf (Y : S8192x64.Idx → EReal) : S8192x32.Idx → EReal :=
  extractStridedSlice S8192x32 ![0, 0] Y slices_S8192x64_S8192x32_0_0

/-- Columns 32–63 of a 64-column array. -/
def rightHalf (Y : S8192x64.Idx → EReal) : S8192x32.Idx → EReal :=
  extractStridedSlice S8192x32 ![0, 32] Y slices_S8192x64_S8192x32_0_32

/-- The change to the shorter float format a pass's right operand goes through: the identity on extended reals. -/
def rounded (X : S8192x64.Idx → EReal) : S8192x64.Idx → EReal :=
  truncf (F := Ideal) (φ := .f32) .bf16 X bitsLt_bf16_f32

/-- Row 0, 1 or 2 of a weight table spread over a 32-column array. -/
def spread0 (w : S3x1.Idx → EReal) : S8192x32.Idx → EReal :=
  broadcastInDim S8192x32 ![0, 1] bcast_S1x1_S8192x32_0_1 (broadcastInDim S1x1 ![1] bcast_S1_S1x1_1
    (shapeCast S1 (extractStridedSlice S1x1 ![0, 0] w slices_S3x1_S1x1_0_0) shapeCasts_S1x1_S1))
def spread1 (w : S3x1.Idx → EReal) : S8192x32.Idx → EReal :=
  broadcastInDim S8192x32 ![0, 1] bcast_S1x1_S8192x32_0_1 (broadcastInDim S1x1 ![1] bcast_S1_S1x1_1
    (shapeCast S1 (extractStridedSlice S1x1 ![1, 0] w slices_S3x1_S1x1_1_0) shapeCasts_S1x1_S1))
def spread2 (w : S3x1.Idx → EReal) : S8192x32.Idx → EReal :=
  broadcastInDim S8192x32 ![0, 1] bcast_S1x1_S8192x32_0_1 (broadcastInDim S1x1 ![1] bcast_S1_S1x1_1
    (shapeCast S1 (extractStridedSlice S1x1 ![2, 0] w slices_S3x1_S1x1_2_0) shapeCasts_S1x1_S1))

/-- Entrywise product and sum of 32-column arrays. -/
def times (a b : S8192x32.Idx → EReal) : S8192x32.Idx → EReal := mulf (F := Ideal) (s := S8192x32) (φ := .f32) a b
def plus (a b : S8192x32.Idx → EReal) : S8192x32.Idx → EReal := addf (F := Ideal) (s := S8192x32) (φ := .f32) a b

/-- Pass 1's right operand `[x_p | x_n]`. -/
def X1 (a2 a3 : S8192x32.Idx → EReal) : S8192x64.Idx → EReal := rounded (joined a2 a3)
/-- Pass 2's right operand `[x_n | right half of Y1]`. -/
def X2 (a3 : S8192x32.Idx → EReal) (Y1 : S8192x64.Idx → EReal) : S8192x64.Idx → EReal := rounded (joined a3 (rightHalf Y1))
/-- Pass 3's right operand `[w2 · left half of Y1 | u1 · left half of Y2]`. -/
def X3 (a4 a5 : S3x1.Idx → EReal) (Y1 Y2 : S8192x64.Idx → EReal) : S8192x64.Idx → EReal :=
  rounded (joined (times (spread2 a4) (leftHalf Y1)) (times (spread1 a5) (leftHalf Y2)))
/-- Pass 3's added term `[w0 · x_p + w1 · left half of Y1 | u0 · left half of Y2 + u2 · right half of Y2]`. -/
def PQ (a2 : S8192x32.Idx → EReal) (a4 a5 : S3x1.Idx → EReal) (Y1 Y2 : S8192x64.Idx → EReal) : S8192x64.Idx → EReal :=
  joined (plus (times (spread0 a4) a2) (times (spread1 a4) (leftHalf Y1)))
    (plus (times (spread0 a5) (leftHalf Y2)) (times (spread2 a5) (rightHalf Y2)))

/-! ## Columns of the named operations -/

/-- Column `q` of the left half and column `q` of the right half, as columns of the 64-column array. -/
abbrev lcol (q : Fin 32) : Fin 64 := ⟨q.val, by omega⟩
abbrev rcol (q : Fin 32) : Fin 64 := ⟨32 + q.val, by omega⟩

theorem col_joined_left (a b : S8192x32.Idx → EReal) (q : Fin 32) : col (joined a b) (lcol q) = col a q :=
  funext fun k => Cert.Columns.joined_left concatenates_S8192x32_S8192x32_S8192x64_d1 a b k q _
theorem col_joined_right (a b : S8192x32.Idx → EReal) (q : Fin 32) : col (joined a b) (rcol q) = col b q :=
  funext fun k => Cert.Columns.joined_right concatenates_S8192x32_S8192x32_S8192x64_d1 a b k q _
theorem col_leftHalf (Y : S8192x64.Idx → EReal) (q : Fin 32) : col (leftHalf Y) q = col Y (lcol q) :=
  funext fun k => (Cert.Columns.cut_apply 0 slices_S8192x64_S8192x32_0_0 Y k q (by omega)).trans
    (congrArg (fun j : Fin 64 => Y (ix2 k j)) (Fin.ext (Nat.zero_add _)))
theorem col_rightHalf (Y : S8192x64.Idx → EReal) (q : Fin 32) : col (rightHalf Y) q = col Y (rcol q) :=
  funext fun k => Cert.Columns.cut_apply 32 slices_S8192x64_S8192x32_0_32 Y k q (by omega)
theorem col_rounded (X : S8192x64.Idx → EReal) (q : Fin 64) : col (rounded X) q = col X q := rfl
theorem col_times_spread0 (w : S3x1.Idx → EReal) (a : S8192x32.Idx → EReal) (q : Fin 32) :
    col (times (spread0 w) a) q = fun k => w (ix2 0 0) * col a q k :=
  funext fun k => congrArg (· * a (ix2 k q)) (Cert.Columns.spread_apply 0 (by omega) w _ _ _ _ k q)
theorem col_times_spread1 (w : S3x1.Idx → EReal) (a : S8192x32.Idx → EReal) (q : Fin 32) :
    col (times (spread1 w) a) q = fun k => w (ix2 1 0) * col a q k :=
  funext fun k => congrArg (· * a (ix2 k q)) (Cert.Columns.spread_apply 1 (by omega) w _ _ _ _ k q)
theorem col_times_spread2 (w : S3x1.Idx → EReal) (a : S8192x32.Idx → EReal) (q : Fin 32) :
    col (times (spread2 w) a) q = fun k => w (ix2 2 0) * col a q k :=
  funext fun k => congrArg (· * a (ix2 k q)) (Cert.Columns.spread_apply 2 (by omega) w _ _ _ _ k q)
theorem col_plus (a b : S8192x32.Idx → EReal) (q : Fin 32) : col (plus a b) q = fun k => col a q k + col b q k := rfl

/-! ## The three passes, column by column -/

section Passes

variable (a0 a1 : S8192x8192.Idx → EReal) (a2 a3 : S8192x32.Idx → EReal) (a4 a5 : S3x1.Idx → EReal)
variable (Y1 Y2 OUT : S8192x64.Idx → EReal)
variable (h1 : ∀ (p : Fin 8192) (q : Fin 64), Y1 (ix2 p q) = hop a0 (col (X1 a2 a3) q) p)
variable (h2 : ∀ (p : Fin 8192) (q : Fin 64), Y2 (ix2 p q) = hop a1 (col (X2 a3 Y1) q) p)
variable (h3 : ∀ (p : Fin 8192) (q : Fin 64), OUT (ix2 p q) = col (PQ a2 a4 a5 Y1 Y2) q p + hop a0 (col (X3 a4 a5 Y1 Y2) q) p)

include h1 in
/-- Pass 1: the left half of Y1 is `A x_p`, the right half `A x_n`. -/
theorem col_Y1_left (q : Fin 32) : col Y1 (lcol q) = hop a0 (col a2 q) :=
  funext fun p => (h1 p (lcol q)).trans (by rw [X1, col_rounded, col_joined_left])
include h1 in
theorem col_Y1_right (q : Fin 32) : col Y1 (rcol q) = hop a0 (col a3 q) :=
  funext fun p => (h1 p (rcol q)).trans (by rw [X1, col_rounded, col_joined_right])

include h1 h2 in
/-- Pass 2: the left half of Y2 is `B x_n`, the right half `B (A x_n)`. -/
theorem col_Y2_left (q : Fin 32) : col Y2 (lcol q) = hop a1 (col a3 q) :=
  funext fun p => (h2 p (lcol q)).trans (by rw [X2, col_rounded, col_joined_left])
include h1 h2 in
theorem col_Y2_right (q : Fin 32) : col Y2 (rcol q) = hop a1 (hop a0 (col a3 q)) :=
  funext fun p => (h2 p (rcol q)).trans (by
    rw [X2, col_rounded, col_joined_right, col_rightHalf, col_Y1_right a0 a2 a3 Y1 h1])

include h1 h2 h3 in
/-- Pass 3, a column of the left half: `(w0 · x + w1 · A x) + A (w2 · A x)` for the column `x` of x_p. -/
theorem out_left (p : Fin 8192) (q : Fin 32) :
    OUT (ix2 p (lcol q))
      = (a4 (ix2 0 0) * col a2 q p + a4 (ix2 1 0) * hop a0 (col a2 q) p)
        + hop a0 (fun k => a4 (ix2 2 0) * hop a0 (col a2 q) k) p := by
  rw [h3 p (lcol q), PQ, X3, col_rounded, col_joined_left, col_joined_left, col_plus, col_times_spread0,
    col_times_spread1, col_times_spread2, col_leftHalf, col_Y1_left a0 a2 a3 Y1 h1]

include h1 h2 h3 in
/-- Pass 3, a column of the right half: `(u0 · B x + u2 · B (A x)) + A (u1 · B x)` for the column `x` of x_n. -/
theorem out_right (p : Fin 8192) (q : Fin 32) :
    OUT (ix2 p (rcol q))
      = (a5 (ix2 0 0) * hop a1 (col a3 q) p + a5 (ix2 2 0) * hop a1 (hop a0 (col a3 q)) p)
        + hop a0 (fun k => a5 (ix2 1 0) * hop a1 (col a3 q) k) p := by
  rw [h3 p (rcol q), PQ, X3, col_rounded, col_joined_right, col_joined_right, col_plus, col_times_spread0,
    col_times_spread2, col_times_spread1, col_leftHalf, col_rightHalf,
    col_Y2_left a0 a1 a2 a3 Y1 Y2 h1 h2, col_Y2_right a0 a1 a2 a3 Y1 Y2 h1 h2]

end Passes

end Cert.KernelIdeal.Columns

end
-- ==== Proof.Boundaries.lean ====
/-
  The kernel program's buffers at each boundary between its segments, as values.

  The program is: a stretch of array operations, pass 1, a second stretch, pass 2, a third stretch, pass 3. The run's
  post-state is a fold over these six segments from the launch memory. Here the fold is read at the buffers that matter:
  after each stretch, the operands it prepared for the next pass as the named array operations of the arguments and of the
  earlier passes' outputs; after each pass, its output array entry by entry as a hop of its operands (the pass's own
  lemma), every other buffer unchanged. The six argument arrays are never written, so at every boundary they are the
  launch contents. At the end the result buffer is pass 3's output array, and the three entry facts are exactly the
  hypotheses under which the columns of the result were computed.
-/
import proofs.«149938_g1580547969346_cont_sun_m_652_18_alg».proof.Proof.Gen.KernelIdeal.Frame
import proofs.«149938_g1580547969346_cont_sun_m_652_18_alg».proof.Proof.Region0
import proofs.«149938_g1580547969346_cont_sun_m_652_18_alg».proof.Proof.Region1
import proofs.«149938_g1580547969346_cont_sun_m_652_18_alg».proof.Proof.Region2
import proofs.«149938_g1580547969346_cont_sun_m_652_18_alg».proof.Proof.KernelColumns
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo Idealize.ShloMosaic.ValueIdx
open Cert.Hops Cert.KernelIdeal Cert.KernelIdeal.Gen Cert.KernelIdeal.Columns Cert.KernelIdeal.RegionValue

variable (m : (ℓ : Loc nD τ sig) → Buf (Elt Ideal) ℓ) (ρ : Dev nD → PrngReg) (c : Dev nD)

/-- The six argument arrays as launched on core `c`: the two adjacency matrices, the two feature arrays, the two weight
    tables. -/
abbrev argA : S8192x8192.Idx → EReal := m ((c : Thread nD τ).loc main_arg0)
abbrev argB : S8192x8192.Idx → EReal := m ((c : Thread nD τ).loc main_arg1)
abbrev argXp : S8192x32.Idx → EReal := m ((c : Thread nD τ).loc main_arg2)
abbrev argXn : S8192x32.Idx → EReal := m ((c : Thread nD τ).loc main_arg3)
abbrev argW : S3x1.Idx → EReal := m ((c : Thread nD τ).loc main_arg4)
abbrev argU : S3x1.Idx → EReal := m ((c : Thread nD τ).loc main_arg5)

/-! ## After the first stretch (pass 1's entry) -/

theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results

/-- Pass 1's right operand is `[x_p | x_n]`. -/
theorem W1_v1 : W1 m ρ c (Proc.devRef .tc main_v1)
    = X1 (m ((c : Thread nD τ).loc main_arg2)) (m ((c : Thread nD τ).loc main_arg3)) := by
  show StableHlo.after hostOps0 (W0 m ρ c) (Proc.devRef .tc main_v1) = _
  after_results
  rfl

/-! ## After pass 1 -/

/-- Pass 1's output array. -/
def Y1 : S8192x64.Idx → EReal := W2 m ρ c (Proc.devRef .tc main_v2)

/-- Entry (p, q) of pass 1's output: row p of A against column q of `[x_p | x_n]`. -/
theorem Y1_entry (p : Fin 8192) (q : Fin 64) :
    Y1 m ρ c (ix2 p q) = hop (m ((c : Thread nD τ).loc main_arg0))
      (col (X1 (m ((c : Thread nD τ).loc main_arg2)) (m ((c : Thread nD τ).loc main_arg3))) q) p := by
  have h := region0_entry (V1 m ρ) c p q
  rw [show (V1 m ρ c main_arg0 : S8192x8192.Idx → EReal) = m ((c : Thread nD τ).loc main_arg0) from W1_arg0 m ρ c,
    show (V1 m ρ c main_v1 : S8192x64.Idx → EReal) = _ from W1_v1 m ρ c] at h
  exact (congrFun (W2_arr m ρ c 2) (ix2 p q)).trans h

/-- The first argument is pass 1's left operand: an input array of a pass ends as it entered. -/
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## After the second stretch (pass 2's entry) -/

theorem W3_arg0 : W3 m ρ c (Proc.devRef .tc main_arg0) = m ((c : Thread nD τ).loc main_arg0) := by
  show StableHlo.after hostOps1 (W2 m ρ c) (Proc.devRef .tc main_arg0) = _
  after_results
  exact W2_arg0 m ρ c
theorem W3_arg1 : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg4 : W3 m ρ c (Proc.devRef .tc main_arg4) = m ((c : Thread nD τ).loc main_arg4) := by
  show StableHlo.after hostOps1 (W2 m ρ c) (Proc.devRef .tc main_arg4) = _
  after_results
  exact W2_arg4 m ρ c
theorem W3_arg5 : W3 m ρ c (Proc.devRef .tc main_arg5) = m ((c : Thread nD τ).loc main_arg5) := by
  show StableHlo.after hostOps1 (W2 m ρ c) (Proc.devRef .tc main_arg5) = _
  after_results
  exact W2_arg5 m ρ c

/-- The left half of pass 1's output, kept for the third stretch. -/
theorem W3_v3 : W3 m ρ c (Proc.devRef .tc main_v3) = leftHalf (Y1 m ρ c) := by
  show StableHlo.after hostOps1 (W2 m ρ c) (Proc.devRef .tc main_v3) = _
  after_results
  rfl

/-- Pass 2's right operand is `[x_n | right half of Y1]`. -/
theorem W3_v6 : W3 m ρ c (Proc.devRef .tc main_v6) = X2 (m ((c : Thread nD τ).loc main_arg3)) (Y1 m ρ c) := by
  show StableHlo.after hostOps1 (W2 m ρ c) (Proc.devRef .tc main_v6) = _
  after_results
  rw [W2_arg3 m ρ c]
  rfl

/-! ## After pass 2 -/

/-- Pass 2's output array. -/
def Y2 : S8192x64.Idx → EReal := W4 m ρ c (Proc.devRef .tc main_v7)

/-- Entry (p, q) of pass 2's output: row p of B against column q of `[x_n | right half of Y1]`. -/
theorem Y2_entry (p : Fin 8192) (q : Fin 64) :
    Y2 m ρ c (ix2 p q) = hop (m ((c : Thread nD τ).loc main_arg1))
      (col (X2 (m ((c : Thread nD τ).loc main_arg3)) (Y1 m ρ c)) q) p := by
  have h := region1_entry (V3 m ρ) c p q
  rw [show (V3 m ρ c main_arg1 : S8192x8192.Idx → EReal) = m ((c : Thread nD τ).loc main_arg1) from W3_arg1 m ρ c,
    show (V3 m ρ c main_v6 : S8192x64.Idx → EReal) = _ from W3_v6 m ρ c] at h
  exact (congrFun (W4_arr m ρ c 2) (ix2 p q)).trans h

theorem W4_arg0 : W4 m ρ c (Proc.devRef .tc main_arg0) = m ((c : Thread nD τ).loc main_arg0) :=
  (W4_of_ne m ρ c main_arg0 (by decide)).trans (W3_arg0 m ρ c)
theorem W4_arg2 : W4 m ρ c (Proc.devRef .tc main_arg2) = m ((c : Thread nD τ).loc main_arg2) :=
  (W4_of_ne m ρ c main_arg2 (by decide)).trans (W3_arg2 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_v3 : W4 m ρ c (Proc.devRef .tc main_v3) = leftHalf (Y1 m ρ c) :=
  (W4_of_ne m ρ c main_v3 (by decide)).trans (W3_v3 m ρ c)

/-! ## After the third stretch (pass 3's entry) -/

theorem W5_arg0 : W5 m ρ c (Proc.devRef .tc main_arg0) = m ((c : Thread nD τ).loc main_arg0) := by
  show StableHlo.after hostOps2 (W4 m ρ c) (Proc.devRef .tc main_arg0) = _
  after_results
  exact W4_arg0 m ρ c

/-- Pass 3's right operand is `[w2 · left half of Y1 | u1 · left half of Y2]`. -/
theorem W5_v21 : W5 m ρ c (Proc.devRef .tc main_v21)
    = X3 (m ((c : Thread nD τ).loc main_arg4)) (m ((c : Thread nD τ).loc main_arg5)) (Y1 m ρ c) (Y2 m ρ c) := by
  show StableHlo.after hostOps2 (W4 m ρ c) (Proc.devRef .tc main_v21) = _
  after_results
  rw [W4_arg4 m ρ c, W4_arg5 m ρ c, W4_v3 m ρ c]
  rfl

set_option maxHeartbeats 4000000 in
/-- Pass 3's added term is `[w0 · x_p + w1 · left half of Y1 | u0 · left half of Y2 + u2 · right half of Y2]`. -/
theorem W5_v44 : W5 m ρ c (Proc.devRef .tc main_v44)
    = PQ (m ((c : Thread nD τ).loc main_arg2)) (m ((c : Thread nD τ).loc main_arg4)) (m ((c : Thread nD τ).loc main_arg5))
        (Y1 m ρ c) (Y2 m ρ c) := by
  show StableHlo.after hostOps2 (W4 m ρ c) (Proc.devRef .tc main_v44) = _
  after_results
  rw [W4_arg2 m ρ c, W4_arg4 m ρ c, W4_arg5 m ρ c, W4_v3 m ρ c]
  rfl

/-! ## After pass 3: the result -/

/-- Entry (p, q) of the result: the added term plus row p of A against column q of pass 3's right operand. -/
theorem out_entry (p : Fin 8192) (q : Fin 64) :
    (W6 m ρ c (Proc.devRef .tc main_v45) : S8192x64.Idx → EReal) (ix2 p q)
      = col (PQ (m ((c : Thread nD τ).loc main_arg2)) (m ((c : Thread nD τ).loc main_arg4)) (m ((c : Thread nD τ).loc main_arg5))
          (Y1 m ρ c) (Y2 m ρ c)) q p
        + hop (m ((c : Thread nD τ).loc main_arg0))
          (col (X3 (m ((c : Thread nD τ).loc main_arg4)) (m ((c : Thread nD τ).loc main_arg5)) (Y1 m ρ c) (Y2 m ρ c)) q) p := by
  have h := region2_entry (V5 m ρ) c p q
  rw [show (V5 m ρ c main_arg0 : S8192x8192.Idx → EReal) = m ((c : Thread nD τ).loc main_arg0) from W5_arg0 m ρ c,
    show (V5 m ρ c main_v21 : S8192x64.Idx → EReal) = _ from W5_v21 m ρ c,
    show (V5 m ρ c main_v44 : S8192x64.Idx → EReal) = _ from W5_v44 m ρ c] at h
  exact (congrFun (W6_arr m ρ c 3) (ix2 p q)).trans h

/-- A column of the left half of the result: `(w0 · x + w1 · A x) + A (w2 · A x)` for the column `x` of x_p. -/
theorem out_left (p : Fin 8192) (q : Fin 32) :
    (W6 m ρ c (Proc.devRef .tc main_v45) : S8192x64.Idx → EReal) (ix2 p (lcol q))
      = (argW m c (ix2 0 0) * col (argXp m c) q p + argW m c (ix2 1 0) * hop (argA m c) (col (argXp m c) q) p)
        + hop (argA m c) (fun k => argW m c (ix2 2 0) * hop (argA m c) (col (argXp m c) q) k) p :=
  Columns.out_left (argA m c) (argB m c) (argXp m c) (argXn m c) (argW m c) (argU m c) (Y1 m ρ c) (Y2 m ρ c) _
    (Y1_entry m ρ c) (Y2_entry m ρ c) (out_entry m ρ c) p q

/-- A column of the right half of the result: `(u0 · B x + u2 · B (A x)) + A (u1 · B x)` for the column `x` of x_n. -/
theorem out_right (p : Fin 8192) (q : Fin 32) :
    (W6 m ρ c (Proc.devRef .tc main_v45) : S8192x64.Idx → EReal) (ix2 p (rcol q))
      = (argU m c (ix2 0 0) * hop (argB m c) (col (argXn m c) q) p
          + argU m c (ix2 2 0) * hop (argB m c) (hop (argA m c) (col (argXn m c) q)) p)
        + hop (argA m c) (fun k => argU m c (ix2 1 0) * hop (argB m c) (col (argXn m c) q) k) p :=
  Columns.out_right (argA m c) (argB m c) (argXp m c) (argXn m c) (argW m c) (argU m c) (Y1 m ρ c) (Y2 m ρ c) _
    (Y1_entry m ρ c) (Y2_entry m ρ c) (out_entry m ρ c) p q

end Cert.KernelIdeal.Boundaries

end
-- ==== Proof.RefEntries.lean ====
/-
  The reference program's result, read entry by entry.

  With `A = x0` and `B = x1` the two adjacency matrices, `X = x2` and `Y = x3` the two feature arrays
  (8192 × 32) and `w = x4`, `v = x5` the two weight columns (3 × 1), the reference builds the 8192 × 64 array

      [ w₀·X + w₁·(A X) + w₂·(A (A X))  |  0 + v₀·(B Y) + v₁·(A (B Y)) + v₂·(B (A Y)) ]

  out of elementwise products and sums, matrix products and one final concatenation along the columns. Column by
  column a matrix product is a hop (`hop A x p = ∑ k, A (p, k) * x k`), so entry `(p, q)` of the left half is a
  combination of hops of column `q` of `X`, and entry `(p, 32 + q)` of the right half one of hops of column `q`
  of `Y`. The lemmas below read the stages one kind at a time, always at an index `(p, q)` given by its two
  coordinates: a weight entry, the zero array, a matrix product, a product of a product; then the two halves; then
  the concatenation.
-/
import proofs.«149938_g1580547969346_cont_sun_m_652_18_alg».proof.Proof.Gen.ReferenceIdeal.Read
import proofs.«149938_g1580547969346_cont_sun_m_652_18_alg».proof.Proof.Hops

noncomputable section

namespace Cert.ReferenceIdeal.Entries

open Cert.ReferenceIdeal Cert.ReferenceIdeal.Read Idealize.ShloMosaic Idealize.ShloMosaic.ValueIdx Cert.Hops

/-! ## Indices -/

/-- Two indices of a rank-2 shape with the same row and the same column are equal. Every index computed by a
stage below is identified with an `ix2 a b` through this, both coordinate equations holding by computation. -/
theorem idx2_ext {n0 n1 : Nat} {i j : (⟨2, ![n0, n1]⟩ : Shape).Idx} (h0 : i 0 = j 0) (h1 : i 1 = j 1) : i = j :=
  funext fun a => match a with
    | ⟨0, _⟩ => h0
    | ⟨1, _⟩ => h1

/-! ## The weights

A weight `w[r]` reaches an 8192 × 32 array through four layout operations: the slice `[r : r+1, 0 : 1]` of the
3 × 1 column, a reshape to one element, and two broadcasts. Each reads its operand at a computed index; composed,
every entry `(p, q)` of the result reads the column at `(r, 0)`. -/

/-- `w[0]`, broadcast: every entry is `x4 (0, 0)`. -/
theorem w0_entry (x4 : S3x1.Idx → EReal) (p : Fin 8192) (q : Fin 32) :
    val_main_v3 (F := Ideal) x4 (ix2 p q) = x4 (ix2 0 0) := by
  rw [val_main_v3_apply, val_main_v2_apply, val_main_v1_apply, val_main_v0_apply]
  exact congrArg x4 (idx2_ext rfl rfl)

/-- `w[1]`, broadcast: every entry is `x4 (1, 0)`. -/
theorem w1_entry (x4 : S3x1.Idx → EReal) (p : Fin 8192) (q : Fin 32) :
    val_main_v25 (F := Ideal) x4 (ix2 p q) = x4 (ix2 1 0) := by
  rw [val_main_v25_apply, val_main_v24_apply, val_main_v23_apply, val_main_v22_apply]
  exact congrArg x4 (idx2_ext rfl rfl)

/-- `w[2]`, broadcast: every entry is `x4 (2, 0)`. -/
theorem w2_entry (x4 : S3x1.Idx → EReal) (p : Fin 8192) (q : Fin 32) :
    val_main_v40 (F := Ideal) x4 (ix2 p q) = x4 (ix2 2 0) := by
  rw [val_main_v40_apply, val_main_v39_apply, val_main_v38_apply, val_main_v37_apply]
  exact congrArg x4 (idx2_ext rfl rfl)

/-- `v[0]`, broadcast: every entry is `x5 (0, 0)`. -/
theorem v0_entry (x5 : S3x1.Idx → EReal) (p : Fin 8192) (q : Fin 32) :
    val_main_v10 (F := Ideal) x5 (ix2 p q) = x5 (ix2 0 0) := by
  rw [val_main_v10_apply, val_main_v9_apply, val_main_v8_apply, val_main_v7_apply]
  exact congrArg x5 (idx2_ext rfl rfl)

/-- `v[1]`, broadcast: every entry is `x5 (1, 0)`. -/
theorem v1_entry (x5 : S3x1.Idx → EReal) (p : Fin 8192) (q : Fin 32) :
    val_main_v17 (F := Ideal) x5 (ix2 p q) = x5 (ix2 1 0) := by
  rw [val_main_v17_apply, val_main_v16_apply, val_main_v15_apply, val_main_v14_apply]
  exact congrArg x5 (idx2_ext rfl rfl)

/-- `v[2]`, broadcast: every entry is `x5 (2, 0)`. -/
theorem v2_entry (x5 : S3x1.Idx → EReal) (p : Fin 8192) (q : Fin 32) :
    val_main_v32 (F := Ideal) x5 (ix2 p q) = x5 (ix2 2 0) := by
  rw [val_main_v32_apply, val_main_v31_apply, val_main_v30_apply, val_main_v29_apply]
  exact congrArg x5 (idx2_ext rfl rfl)

/-! ## The zero array -/

/-- The array of zeros the right half starts from: the float constant with all bits clear, broadcast, is the
extended real `0` at every entry. -/
theorem zeros_entry (p : Fin 8192) (q : Fin 32) : val_main_v5 (F := Ideal) (ix2 p q) = 0 := by
  rw [val_main_v5_apply, val_main_cst_apply]
  exact Ideal.ofBits_zero_f32

/-! ## Matrix products

Entry `(p, q)` of a product `M · Z` is `∑ k, M (p, k) * Z (k, q)`: the left operand is read at row `p`, column
`k`, the right operand at row `k`, column `q`. With `Z` an input array this is the hop of its column `q`. -/

/-- `A · X` at `(p, q)`: one hop by `A` of column `q` of `X`. -/
theorem AX_entry (x0 : S8192x8192.Idx → EReal) (x2 : S8192x32.Idx → EReal) (p : Fin 8192) (q : Fin 32) :
    val_main_v20 (F := Ideal) x0 x2 (ix2 p q) = hop x0 (col x2 q) p := by
  rw [val_main_v20_apply]
  show _ = ∑ k : Fin 8192, x0 (ix2 p k) * col x2 q k
  refine Finset.sum_congr rfl fun k _ => ?_
  rw [idx2_ext (i := lidx_main_v20 (ix2 p q) k) (j := ix2 p k) rfl rfl,
    idx2_ext (i := ridx_main_v20 (ix2 p q) k) (j := ix2 k q) rfl rfl]
  rfl

/-- `A · Y` at `(p, q)`: one hop by `A` of column `q` of `Y`. -/
theorem AY_entry (x0 : S8192x8192.Idx → EReal) (x3 : S8192x32.Idx → EReal) (p : Fin 8192) (q : Fin 32) :
    val_main_v21 (F := Ideal) x0 x3 (ix2 p q) = hop x0 (col x3 q) p := by
  rw [val_main_v21_apply]
  show _ = ∑ k : Fin 8192, x0 (ix2 p k) * col x3 q k
  refine Finset.sum_congr rfl fun k _ => ?_
  rw [idx2_ext (i := lidx_main_v21 (ix2 p q) k) (j := ix2 p k) rfl rfl,
    idx2_ext (i := ridx_main_v21 (ix2 p q) k) (j := ix2 k q) rfl rfl]
  rfl

/-- `B · Y` at `(p, q)`: one hop by `B` of column `q` of `Y`. -/
theorem BY_entry (x1 : S8192x8192.Idx → EReal) (x3 : S8192x32.Idx → EReal) (p : Fin 8192) (q : Fin 32) :
    val_main_v6 (F := Ideal) x1 x3 (ix2 p q) = hop x1 (col x3 q) p := by
  rw [val_main_v6_apply]
  show _ = ∑ k : Fin 8192, x1 (ix2 p k) * col x3 q k
  refine Finset.sum_congr rfl fun k _ => ?_
  rw [idx2_ext (i := lidx_main_v6 (ix2 p q) k) (j := ix2 p k) rfl rfl,
    idx2_ext (i := ridx_main_v6 (ix2 p q) k) (j := ix2 k q) rfl rfl]
  rfl

/-! ## Products of products

When the right operand is itself a product, its entry `(k, q)` under the sum is already a hop (the lemmas
above, used at row `k`), so the outer sum is a hop of a hop. -/

/-- `A · (A · X)` at `(p, q)`: two hops by `A`. -/
theorem AAX_entry (x0 : S8192x8192.Idx → EReal) (x2 : S8192x32.Idx → EReal) (p : Fin 8192) (q : Fin 32) :
    val_main_v35 (F := Ideal) x0 x2 (ix2 p q) = hop x0 (hop x0 (col x2 q)) p := by
  rw [val_main_v35_apply]
  show _ = ∑ k : Fin 8192, x0 (ix2 p k) * hop x0 (col x2 q) k
  refine Finset.sum_congr rfl fun k _ => ?_
  rw [idx2_ext (i := lidx_main_v35 (ix2 p q) k) (j := ix2 p k) rfl rfl,
    idx2_ext (i := ridx_main_v35 (ix2 p q) k) (j := ix2 k q) rfl rfl, AX_entry]

/-- `A · (B · Y)` at `(p, q)`: a hop by `B`, then one by `A`. -/
theorem ABY_entry (x0 x1 : S8192x8192.Idx → EReal) (x3 : S8192x32.Idx → EReal) (p : Fin 8192) (q : Fin 32) :
    val_main_v13 (F := Ideal) x0 x1 x3 (ix2 p q) = hop x0 (hop x1 (col x3 q)) p := by
  rw [val_main_v13_apply]
  show _ = ∑ k : Fin 8192, x0 (ix2 p k) * hop x1 (col x3 q) k
  refine Finset.sum_congr rfl fun k _ => ?_
  rw [idx2_ext (i := lidx_main_v13 (ix2 p q) k) (j := ix2 p k) rfl rfl,
    idx2_ext (i := ridx_main_v13 (ix2 p q) k) (j := ix2 k q) rfl rfl, BY_entry]

/-- `B · (A · Y)` at `(p, q)`: a hop by `A`, then one by `B`. -/
theorem BAY_entry (x0 x1 : S8192x8192.Idx → EReal) (x3 : S8192x32.Idx → EReal) (p : Fin 8192) (q : Fin 32) :
    val_main_v28 (F := Ideal) x0 x1 x3 (ix2 p q) = hop x1 (hop x0 (col x3 q)) p := by
  rw [val_main_v28_apply]
  show _ = ∑ k : Fin 8192, x1 (ix2 p k) * hop x0 (col x3 q) k
  refine Finset.sum_congr rfl fun k _ => ?_
  rw [idx2_ext (i := lidx_main_v28 (ix2 p q) k) (j := ix2 p k) rfl rfl,
    idx2_ext (i := ridx_main_v28 (ix2 p q) k) (j := ix2 k q) rfl rfl, AY_entry]

/-! ## The two halves

The elementwise stages are, at the ideal values, the extended reals' `*` and `+` entry by entry, in the order
and with the bracketing the program has. -/

/-- The left half `(w₀·X + w₁·(A X)) + w₂·(A (A X))` at `(p, q)`. -/
theorem left_entry (x0 : S8192x8192.Idx → EReal) (x2 : S8192x32.Idx → EReal) (x4 : S3x1.Idx → EReal)
    (p : Fin 8192) (q : Fin 32) :
    val_main_v42 (F := Ideal) x0 x2 x4 (ix2 p q)
      = (x4 (ix2 0 0) * col x2 q p + x4 (ix2 1 0) * hop x0 (col x2 q) p) + x4 (ix2 2 0) * hop x0 (hop x0 (col x2 q)) p := by
  rw [val_main_v42_apply, val_main_v27_apply, val_main_v4_apply, val_main_v26_apply, val_main_v41_apply,
    w0_entry, w1_entry, w2_entry, AX_entry, AAX_entry]
  rfl

/-- The right half `((0 + v₀·(B Y)) + v₁·(A (B Y))) + v₂·(B (A Y))` at `(p, q)`. The leading `0` is the
program's array of zeros, kept where the program has it. -/
theorem right_entry (x0 x1 : S8192x8192.Idx → EReal) (x3 : S8192x32.Idx → EReal) (x5 : S3x1.Idx → EReal)
    (p : Fin 8192) (q : Fin 32) :
    val_main_v34 (F := Ideal) x0 x1 x3 x5 (ix2 p q)
      = ((0 + x5 (ix2 0 0) * hop x1 (col x3 q) p) + x5 (ix2 1 0) * hop x0 (hop x1 (col x3 q)) p)
          + x5 (ix2 2 0) * hop x1 (hop x0 (col x3 q)) p := by
  rw [val_main_v34_apply, val_main_v19_apply, val_main_v12_apply, val_main_v11_apply, val_main_v18_apply,
    val_main_v33_apply, zeros_entry, v0_entry, v1_entry, v2_entry, BY_entry, ABY_entry, BAY_entry]
  rfl

/-! ## The concatenation

The result joins the two halves along the columns: column `c < 32` is column `c` of the left half, column
`32 + c` is column `c` of the right half. -/

/-- Columns below 32: the left half at the same row and column. -/
theorem out_left (x0 x1 : S8192x8192.Idx → EReal) (x2 x3 : S8192x32.Idx → EReal) (x4 x5 : S3x1.Idx → EReal)
    (p : Fin 8192) (q : Fin 32) :
    val_main_v43 (F := Ideal) x0 x1 x2 x3 x4 x5 (ix2 p (⟨q.val, by omega⟩ : Fin 64))
      = (x4 (ix2 0 0) * col x2 q p + x4 (ix2 1 0) * hop x0 (col x2 q) p) + x4 (ix2 2 0) * hop x0 (hop x0 (col x2 q)) p := by
  unfold val_main_v43
  -- the index `(p, q)` of the first piece has the coordinates of the index `(p, q)` of the result
  rw [concatenate_pair_apply_left (t := S8192x64) (s₁ := S8192x32) (s₂ := S8192x32) 1 _ _ _
    (ix2 p (⟨q.val, by omega⟩ : Fin 64)) rfl (ix2 p q)
    (fun b => match b with
      | ⟨0, _⟩ => rfl
      | ⟨1, _⟩ => rfl)]
  exact left_entry x0 x2 x4 p q

/-- Columns from 32 up: the right half at the same row and the column less 32. -/
theorem out_right (x0 x1 : S8192x8192.Idx → EReal) (x2 x3 : S8192x32.Idx → EReal) (x4 x5 : S3x1.Idx → EReal)
    (p : Fin 8192) (q : Fin 32) :
    val_main_v43 (F := Ideal) x0 x1 x2 x3 x4 x5 (ix2 p (⟨32 + q.val, by omega⟩ : Fin 64))
      = ((0 + x5 (ix2 0 0) * hop x1 (col x3 q) p) + x5 (ix2 1 0) * hop x0 (hop x1 (col x3 q)) p)
          + x5 (ix2 2 0) * hop x1 (hop x0 (col x3 q)) p := by
  unfold val_main_v43
  -- off the joined axis (the rows) the index `(p, q)` of the second piece agrees with `(p, 32 + q)`; on it, its
  -- column `q` plus the first piece's 32 columns is the column `32 + q` of the result
  rw [concatenate_pair_apply_right (t := S8192x64) (s₁ := S8192x32) (s₂ := S8192x32) 1 _ _ _
    (ix2 p (⟨32 + q.val, by omega⟩ : Fin 64)) rfl rfl (ix2 p q)
    (fun b => match b with
      | ⟨0, _⟩ => fun _ => rfl
      | ⟨1, _⟩ => fun h => absurd rfl h)
    (Nat.add_comm q.val 32)]
  exact right_entry x0 x1 x3 x5 p q

end Cert.ReferenceIdeal.Entries

end
-- ==== Proof.FiniteInputs.lean ====
/-
  The precondition, read as mathematics: every entry of every argument is a real number.

  The printed predicate computes, for each of the six argument arrays `x`, the array of bits `|x i| < +∞`
  (the absolute value is `max (x i) (-(x i))`, the bound is the word `0x7F800000`, which denotes `⊤`), folds each
  array of bits by `and` over both axes from the bit 1, and joins the six results by `and`. The claim states
  that the final bit is 1. Read backwards: an `and` that is 1 had two operands that are 1; a fold by `and` that is
  1 met only 1s; and a bit `|x i| < ⊤` that is 1 leaves `x i` neither `⊤` nor `⊥` — of the three kinds of extended
  real, only a real number has an absolute value below `⊤`.
-/
import proofs.«149938_g1580547969346_cont_sun_m_652_18_alg».proof.Pre_finite_inputs
import proofs.«149938_g1580547969346_cont_sun_m_652_18_alg».proof.Proof.Hops
import Idealize.ShloMosaic.Lib.ReduceAll

noncomputable section

namespace Cert.FiniteInputs

open Idealize.ShloMosaic Idealize.ShloMosaic.ValueIdx Cert.Hops
open Cert.Pre_finite_inputs (S_ S8192x8192 S8192x32 S3x1)

/-- The rank-0 shape has exactly one index (there is no coordinate to choose). -/
instance : Subsingleton S_.Idx := ⟨fun a b => funext fun d => d.elim0⟩

/-! ### One entry -/

/-- An extended real whose absolute value `max x (-x)` is below `⊤` is a real number: the absolute value of
    `⊤` is `max ⊤ ⊥ = ⊤` and that of `⊥` is `max ⊥ ⊤ = ⊤`, neither of which is below `⊤`. -/
theorem isReal_of_abs_lt_top (x : EReal) (h : max x (-x) < ⊤) : IsReal x := by
  induction x using EReal.rec with
  | bot => exact absurd h (by simp)
  | coe r => exact ⟨r, rfl⟩
  | top => exact absurd h (by simp)

/-- The single-precision word `0x7F800000` (sign 0, exponent all ones, fraction 0) denotes `+∞`. -/
theorem inf_word : Ideal.ofBits .f32 0x7F800000#32 = ⊤ := by simp [Ideal.ofBits, Ideal.ieee]

/-- An entry whose compare bit `|x i| < +∞` is 1 is real. The bit at `i` of the compared arrays is the comparison of
    their entries at `i`: `max (x i) (-(x i))` on the left and, the right array being a broadcast scalar, the constant
    `+∞` on the right. Generic in the shape `s` of the argument. -/
theorem isReal_of_bit {s : Shape} (bc : S_.BroadcastsInDim s (![] : Fin 0 → Fin s.rank)) (x : s.Idx → EReal) (i : s.Idx)
    (h : cmpf .olt (Host.absf (F := Ideal) (φ := .f32) x)
          (broadcastInDim s ![] bc (constant (F := Ideal) S_ .f32 0x7F800000#32)) i = 1#1) :
    IsReal (x i) := by
  -- entrywise, the comparison is `|x i| < ofBits 0x7F800000`, an `i1` word
  have h' : Ideal.cmp .olt (max (x i) (-(x i))) (Ideal.ofBits .f32 0x7F800000#32) = 1#1 := h
  rw [inf_word] at h'
  -- the word is 1 exactly when the inequality holds
  refine isReal_of_abs_lt_top (x i) ?_
  by_contra hn
  simp [Ideal.cmp, hn] at h'

/-! ### One argument -/

/-- A fold by `and` over all axes that came out 1 makes every entry's bit 1, hence every entry real. -/
theorem real_of_all {s : Shape} {axes : List (Fin s.rank)} (bc : S_.BroadcastsInDim s (![] : Fin 0 → Fin s.rank))
    (hr : s.ReducesTo axes S_) (hu : 0 < S_.numel) (x : s.Idx → EReal) (init : S_.Idx → BitVec 1)
    (e : Host.reduce IntOp.andi
          (cmpf .olt (Host.absf (F := Ideal) (φ := .f32) x)
            (broadcastInDim s ![] bc (constant (F := Ideal) S_ .f32 0x7F800000#32))) init hr hu ix0 = 1#1)
    (i : s.Idx) : IsReal (x i) :=
  isReal_of_bit bc x i (Host.reduce_andi_all _ init hr hu ix0 e i)

/-! ### The six arguments -/

theorem real_of_pre [Cert.Pre_finite_inputs.Facts] (a0 a1 : S8192x8192.Idx → EReal) (a2 a3 : S8192x32.Idx → EReal) (a4 a5 : S3x1.Idx → EReal)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  -- the predicate's one bit
  have h0 := congrFun h ix0
  -- unfold the printed chain: what is left is ((((r0 ∧ r1) ∧ r2) ∧ r3) ∧ r4) ∧ r5 = 1, with
  -- rK the fold by `and` of the bits `|aK i| < +∞`
  dsimp only [Cert.Pre_finite_inputs.fn, Cert.Pre_finite_inputs.fn_part1, andi] at h0
  -- an `and` of two bits is 1 only when both are: peel the six folds off, last first
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each fold that is 1 makes every entry of its argument real
  exact ⟨real_of_all _ _ _ a0 _ e0, real_of_all _ _ _ a1 _ e1, real_of_all _ _ _ a2 _ e2,
    real_of_all _ _ _ a3 _ e3, real_of_all _ _ _ a4 _ e4, real_of_all _ _ _ a5 _ e5⟩

end Cert.FiniteInputs

end
-- ==== Proof.HopLaws.lean ====
/-
  Two laws of the hop among real entries.

  The extended reals are not a semiring: `c * (a + b) = c * a + c * b` fails when infinities of both signs
  meet. Among entries that are real numbers nothing of that kind can happen, so each law is proved by naming the
  real numbers behind the entries, pushing the coercion `ℝ → EReal` outwards through products and finite sums,
  and doing the algebra in `ℝ`, which is a field.
-/
import proofs.«149938_g1580547969346_cont_sun_m_652_18_alg».proof.Proof.Hops

noncomputable section

namespace Cert.Hops

open Idealize.ShloMosaic Idealize.ShloMosaic.ValueIdx

/-- The coercion `ℝ → EReal` commutes with a finite sum. By induction on the index set: the empty sum is
`0` on both sides, and inserting one index adds one term on both sides (`EReal.coe_add`). -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih =>
    rw [Finset.sum_insert ha, Finset.sum_insert ha, EReal.coe_add, ih]

/-- The sum of two real entries is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real entries is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A hop of real data, written as the coercion of the same sum taken in `ℝ`: if `A (p, k) = ↑(a k)` and
`x k = ↑(y k)` for every `k`, then `∑ k, A (p, k) * x k = ↑(∑ k, a k * y k)`. -/
theorem hop_eq_coe {n : Nat} (A : (⟨2, ![n, n]⟩ : Shape).Idx → EReal) (x : Fin n → EReal) (p : Fin n)
    (a y : Fin n → ℝ) (ha : ∀ k, A (ix2 p k) = (a k : EReal)) (hy : ∀ k, x k = (y k : EReal)) :
    hop A x p = ((∑ k : Fin n, a k * y k : ℝ) : EReal) := by
  unfold hop
  rw [coe_finset_sum]
  refine Finset.sum_congr rfl fun k _ => ?_
  rw [ha k, hy k, EReal.coe_mul]

/-- A hop of real data is real: every term `A (p, k) * x k` is a real number, and so is their finite sum. -/
theorem isReal_hop {n : Nat} (A : (⟨2, ![n, n]⟩ : Shape).Idx → EReal) (x : Fin n → EReal) (hA : ∀ i, IsReal (A i)) (hx : ∀ k, IsReal (x k)) (p : Fin n) :
    IsReal (hop A x p) := by
  -- name the real numbers behind row `p` of `A` and behind `x`
  choose a ha using fun k : Fin n => hA (ix2 p k)
  choose y hy using hx
  exact ⟨∑ k : Fin n, a k * y k, hop_eq_coe A x p a y ha hy⟩

/-- A real scalar moves across a hop: `∑ k, A (p, k) * (c * x k) = c * ∑ k, A (p, k) * x k`. In `ℝ` this is
`Finset.mul_sum` followed, term by term, by `a * (c * y) = c * (a * y)`. -/
theorem hop_smul {n : Nat} (A : (⟨2, ![n, n]⟩ : Shape).Idx → EReal) (x : Fin n → EReal) (c : EReal) (hc : IsReal c) (hA : ∀ i, IsReal (A i)) (hx : ∀ k, IsReal (x k)) (p : Fin n) :
    hop A (fun k => c * x k) p = c * hop A x p := by
  obtain ⟨r, rfl⟩ := hc
  choose a ha using fun k : Fin n => hA (ix2 p k)
  choose y hy using hx
  -- the scaled column has the real entries `r * y k`
  have hcy : ∀ k, (fun k => (r : EReal) * x k) k = ((r * y k : ℝ) : EReal) := fun k => by
    show (r : EReal) * x k = ((r * y k : ℝ) : EReal)
    rw [hy k, EReal.coe_mul]
  rw [hop_eq_coe A _ p a (fun k => r * y k) ha hcy, hop_eq_coe A x p a y ha hy, ← EReal.coe_mul]
  -- now both sides are coercions of real numbers; compare them in `ℝ`
  congr 1
  rw [Finset.mul_sum]
  exact Finset.sum_congr rfl fun k _ => mul_left_comm (a k) r (y k)

end Cert.Hops

end
-- ==== Proof.TwoForms.lean ====
/-
  The law that joins the two programs.

  For a column x and adjacency matrices A, B, the reference forms `w2 · A (A x)` by first hopping twice and then scaling,
  the kernel by scaling `A x` first and hopping afterwards: `A (w2 · A x)`; likewise `u1 · A (B x)` against
  `A (u1 · B x)`. A scalar moves across a hop when every entry involved is a real number (among extended reals the
  products would not distribute over a sum that mixes infinities of both signs). The right half's three terms are also
  added in a different order, which addition on the extended reals allows without any condition, and the reference starts
  its sum from zero.
-/
import proofs.«149938_g1580547969346_cont_sun_m_652_18_alg».proof.Proof.HopLaws

noncomputable section

namespace Cert.Hops

open Idealize.ShloMosaic Idealize.ShloMosaic.ValueIdx

variable {n : Nat} (A B : (⟨2, ![n, n]⟩ : Shape).Idx → EReal) (x : Fin n → EReal)

/-- The positive features, one column: `(w0 · x + w1 · A x) + A (w2 · A x) = (w0 · x + w1 · A x) + w2 · A (A x)`. -/
theorem scaled_then_hop (w0 w1 w2 : EReal) (hA : ∀ i, IsReal (A i)) (hx : ∀ k, IsReal (x k)) (hw : IsReal w2) (p : Fin n) :
    (w0 * x p + w1 * hop A x p) + hop A (fun k => w2 * hop A x k) p
      = (w0 * x p + w1 * hop A x p) + w2 * hop A (hop A x) p := by
  rw [hop_smul A (hop A x) w2 hw hA (isReal_hop A x hA hx) p]

/-- The negative features, one column:
    `(u0 · B x + u2 · B (A x)) + A (u1 · B x) = ((0 + u0 · B x) + u1 · A (B x)) + u2 · B (A x)`. -/
theorem scaled_then_hop_reordered (u0 u1 u2 : EReal) (hA : ∀ i, IsReal (A i)) (hB : ∀ i, IsReal (B i))
    (hx : ∀ k, IsReal (x k)) (hu : IsReal u1) (p : Fin n) :
    (u0 * hop B x p + u2 * hop B (hop A x) p) + hop A (fun k => u1 * hop B x k) p
      = ((0 + u0 * hop B x p) + u1 * hop A (hop B x) p) + u2 * hop B (hop A x) p := by
  rw [hop_smul A (hop B x) u1 hu hA (isReal_hop B x hB hx) p, zero_add, add_right_comm]

end Cert.Hops

end
-- ==== Proof.ResultEq.lean ====
/-
  The two programs' results are one array.

  Under the precondition every entry of the six arguments is a real number. Entry (p, j) of either result is read
  through its column: a column j < 32 is column j of the positive features, `(w0 · x + w1 · A x) + w2 · A (A x)` for the
  column x of x_p, which the kernel computes as `(w0 · x + w1 · A x) + A (w2 · A x)`; a column j = 32 + q is column q of
  the negative features, `((0 + u0 · B x) + u1 · A (B x)) + u2 · B (A x)` for the column x of x_n, which the kernel
  computes as `(u0 · B x + u2 · B (A x)) + A (u1 · B x)`. The two forms agree on real entries.
-/
import proofs.«149938_g1580547969346_cont_sun_m_652_18_alg».proof.Proof.Boundaries
import proofs.«149938_g1580547969346_cont_sun_m_652_18_alg».proof.Proof.RefEntries
import proofs.«149938_g1580547969346_cont_sun_m_652_18_alg».proof.Proof.FiniteInputs
import proofs.«149938_g1580547969346_cont_sun_m_652_18_alg».proof.Proof.TwoForms
import proofs.«149938_g1580547969346_cont_sun_m_652_18_alg».proof.Proof.Gen.Pre_finite_inputs

set_option maxRecDepth 16384

noncomputable section

namespace Cert.ResultEq

open Idealize.ShloMosaic Idealize.ShloMosaic.TcCoe Idealize.SL.Sem Idealize.ShloMosaic.ValueIdx
open Cert.Hops Cert.KernelIdeal Cert.KernelIdeal.Gen Cert.KernelIdeal.Columns Cert.KernelIdeal.Boundaries

variable (m : (ℓ : Loc nD τ sig) → Buf (Elt Ideal) ℓ) (ρ : Dev nD → PrngReg) (c : Dev nD)

/-- The reference's result array, as a function of the kernel's argument arrays on core `c`, is the kernel's result
    array there, when the arguments satisfy the precondition. -/
theorem result_eq
    (hpre : Cert.Pre_finite_inputs.fn (F := Ideal) (argA m c) (argB m c) (argXp m c) (argXn m c) (argW m c) (argU m c) = fun _ => 1#1) :
    Cert.ReferenceIdeal.Read.val_main_v43 (F := Ideal) (argA m c) (argB m c) (argXp m c) (argXn m c) (argW m c) (argU m c)
      = (W6 m ρ c (Proc.devRef .tc main_v45) : S8192x64.Idx → EReal) := by
  obtain ⟨hA, hB, hXp, hXn, hW, hU⟩ := Cert.FiniteInputs.real_of_pre _ _ _ _ _ _ hpre
  funext i
  obtain ⟨p, j, rfl⟩ : ∃ (p : Fin 8192) (j : Fin 64), i = ix2 p j := ⟨i 0, i 1, eq_ix2 i⟩
  by_cases hj : j.val < 32
  · -- a column of the positive features
    obtain ⟨q, rfl⟩ : ∃ q : Fin 32, j = lcol q := ⟨⟨j.val, hj⟩, Fin.ext rfl⟩
    rw [Cert.ReferenceIdeal.Entries.out_left, Boundaries.out_left]
    exact (scaled_then_hop (argA m c) (col (argXp m c) _) _ _ _ hA (fun k => hXp _) (hW _) p).symm
  · -- a column of the negative features
    obtain ⟨q, rfl⟩ : ∃ q : Fin 32, j = rcol q :=
      ⟨⟨j.val - 32, by have := j.isLt; omega⟩, Fin.ext (by show j.val = 32 + (j.val - 32); omega)⟩
    rw [Cert.ReferenceIdeal.Entries.out_right, Boundaries.out_right]
    exact (scaled_then_hop_reordered (argA m c) (argB m c) (col (argXn m c) _) _ _ _ hA hB (fun k => hXn _) (hU _) p).symm

end Cert.ResultEq

end
-- ==== Proof.lean ====
/-
  The certificate of the signed-graph propagation kernel against its reference.

  The reference computes, with A and B the two 8192 × 8192 adjacency matrices, x_p and x_n the two 8192 × 32 feature
  arrays and w, u the two weight tables,

      [ w0 · x_p + w1 · A x_p + w2 · A (A x_p)  |  u0 · B x_n + u1 · A (B x_n) + u2 · B (A x_n) ]

  with six matrix products. The kernel regroups them into three passes over 64-column right operands, each pass a grid of
  32 row blocks: Y1 = A [x_p | x_n], Y2 = B [x_n | A x_n], and a last pass A [w2 · A x_p | u1 · B x_n] added onto
  [w0 · x_p + w1 · A x_p | u0 · B x_n + u2 · B (A x_n)].

  The three frames are the generated ones (the reference's is its generated run with the result dropped); no operation was
  rewritten by the idealization, so there is nothing to preserve; and the algebraic claim puts the kernel's run, with its
  result named (Proof/ResultRun.lean) and read column by column (Proof/Region0–2.lean, Proof/KernelColumns.lean,
  Proof/Boundaries.lean), beside the reference's generated run read entry by entry (Proof/RefEntries.lean): the two
  results are one array when every argument entry is a real number (Proof/FiniteInputs.lean, Proof/HopLaws.lean,
  Proof/TwoForms.lean, Proof/ResultEq.lean).
-/
import proofs.«149938_g1580547969346_cont_sun_m_652_18_alg».proof.Defs
import proofs.«149938_g1580547969346_cont_sun_m_652_18_alg».proof.Proof.Gen.Kernel
import proofs.«149938_g1580547969346_cont_sun_m_652_18_alg».proof.Proof.Gen.Kernel.Skeleton
import proofs.«149938_g1580547969346_cont_sun_m_652_18_alg».proof.Proof.Gen.Kernel.Launch
import proofs.«149938_g1580547969346_cont_sun_m_652_18_alg».proof.Proof.Gen.Kernel.Points
import proofs.«149938_g1580547969346_cont_sun_m_652_18_alg».proof.Proof.Gen.Kernel.Frame
import proofs.«149938_g1580547969346_cont_sun_m_652_18_alg».proof.Proof.Gen.KernelIdeal
import proofs.«149938_g1580547969346_cont_sun_m_652_18_alg».proof.Proof.Gen.KernelIdeal.Skeleton
import proofs.«149938_g1580547969346_cont_sun_m_652_18_alg».proof.Proof.Gen.KernelIdeal.Launch
import proofs.«149938_g1580547969346_cont_sun_m_652_18_alg».proof.Proof.Gen.KernelIdeal.Points
import proofs.«149938_g1580547969346_cont_sun_m_652_18_alg».proof.Proof.Gen.KernelIdeal.Frame
import proofs.«149938_g1580547969346_cont_sun_m_652_18_alg».proof.Proof.Gen.ReferenceIdeal
import proofs.«149938_g1580547969346_cont_sun_m_652_18_alg».proof.Proof.Gen.Pre_finite_inputs
import proofs.«149938_g1580547969346_cont_sun_m_652_18_alg».proof.Proof.Gen.ReferenceIdeal.Read
import proofs.«149938_g1580547969346_cont_sun_m_652_18_alg».proof.Proof.ResultRun
import proofs.«149938_g1580547969346_cont_sun_m_652_18_alg».proof.Proof.ResultEq
import Idealize.ShloMosaic.Adequacy
import Idealize.ShloMosaic.Init

noncomputable section

namespace Cert.Proof

open Idealize.ShloMosaic Idealize.ShloMosaic.TcCoe Idealize.SL.Sem

/-- The word-level kernel and its idealization run to the end, fault-free, with their arguments unchanged. -/
theorem frame_kernel : Cert.frame_Kernel := fun m ρ _ => Cert.Kernel.Gen.frame m ρ
theorem frame_kernelIdeal : Cert.frame_KernelIdeal := fun m ρ _ => Cert.KernelIdeal.Gen.frame m ρ
/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the same result on every core: the
    kernel's result buffer holds the last boundary's contents, the reference's its composed term of the arguments, and
    under the precondition these are one array. -/
theorem algebraic : Cert.algebraic_KernelIdeal_ReferenceIdeal := by
  intro m ρ m' ρ' hpre hagree
  refine ⟨fun c => Cert.KernelIdeal.Gen.W6 m ρ c (Proc.devRef .tc Cert.KernelIdeal.main_v45),
    Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1,
    (hagree c).2.2.2.2.1, (hagree c).2.2.2.2.2]
  exact Cert.ResultEq.result_eq m ρ c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
